-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x16 .f32) (main_arg1 : FVec F S16x16 .f32) (main_arg2 : FVec F S16 .f32) (main_arg3 : FVec F S16x2 .f32) (main_arg4 : FVec F S2 .f32) (main_arg5 : IVec S2x3200000 32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S4000x16 : Shape := ⟨2, ![4000, 16]⟩
abbrev S3400000x16 : Shape := ⟨2, ![3400000, 16]⟩
abbrev S1x16 : Shape := ⟨2, ![1, 16]⟩
abbrev S200000x2 : Shape := ⟨2, ![200000, 2]⟩
abbrev S4000x2 : Shape := ⟨2, ![4000, 2]⟩
abbrev S3400000x2 : Shape := ⟨2, ![3400000, 2]⟩
abbrev S1x2 : Shape := ⟨2, ![1, 2]⟩
abbrev S4000 : Shape := ⟨1, ![4000]⟩
abbrev S4000x1 : Shape := ⟨2, ![4000, 1]⟩

abbrev nBuf : Space → Nat
  | .hbm => 85
  | .vmem => 16
  | .smem => 0
  | _ => 0

abbrev bufTy : (tb : Table) → Fin (tcTables nBuf tb) → BufTy
  | .hbm, ⟨0, _⟩ => ⟨S200000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S200000, .i32⟩
  | .hbm, ⟨7, _⟩ => ⟨S1x3200000, .i32⟩
  | .hbm, ⟨8, _⟩ => ⟨S3200000, .i32⟩
  | .hbm, ⟨9, _⟩ => ⟨S3400000, .i32⟩
  | .hbm, ⟨10, _⟩ => ⟨S1x3200000, .i32⟩
  | .hbm, ⟨11, _⟩ => ⟨S3200000, .i32⟩
  | .hbm, ⟨12, _⟩ => ⟨S3400000, .i32⟩
  | .hbm, ⟨13, _⟩ => ⟨S_, .f32⟩
  | .hbm, ⟨14, _⟩ => ⟨S3400000, .f32⟩
  | .hbm, ⟨15, _⟩ => ⟨S_, .f32⟩
  | .hbm, ⟨16, _⟩ => ⟨S200000, .f32⟩
  | .hbm, ⟨17, _⟩ => ⟨S3400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S3400000, .i32⟩
  | .hbm, ⟨32, _⟩ => ⟨S3400000, .i1⟩
  | .hbm, ⟨33, _⟩ => ⟨S_, .i32⟩
  | .hbm, ⟨34, _⟩ => ⟨S3400000, .i32⟩
  | .hbm, ⟨35, _⟩ => ⟨S3400000, .i32⟩
  | .hbm, ⟨36, _⟩ => ⟨S3400000, .i32⟩
  | .hbm, ⟨37, _⟩ => ⟨S3400000x1, .i32⟩
  | .hbm, ⟨38, _⟩ => ⟨S3400000, .f32⟩
  | .hbm, ⟨39, _⟩ => ⟨S_, .i32⟩
  | .hbm, ⟨40, _⟩ => ⟨S3400000, .i32⟩
  | .hbm, ⟨41, _⟩ => ⟨S3400000, .i1⟩
  | .hbm, ⟨42, _⟩ => ⟨S_, .i32⟩
  | .hbm, ⟨43, _⟩ => ⟨S3400000, .i32⟩
  | .hbm, ⟨44, _⟩ => ⟨S3400000, .i32⟩
  | .hbm, ⟨45, _⟩ => ⟨S3400000, .i32⟩
  | .hbm, ⟨46, _⟩ => ⟨S3400000x1, .i32⟩
  | .hbm, ⟨47, _⟩ => ⟨S3400000, .f32⟩
  | .hbm, ⟨48, _⟩ => ⟨S3400000, .f32⟩
  | .hbm, ⟨49, _⟩ => ⟨S3400000x1, .f32⟩
  | .hbm, ⟨50, _⟩ => ⟨S200000x16, .f32⟩
  | .hbm, ⟨51, _⟩ => ⟨S_, .i32⟩
  | .hbm, ⟨52, _⟩ => ⟨S3400000, .i32⟩
  | .hbm, ⟨53, _⟩ => ⟨S3400000, .i1⟩
  | .hbm, ⟨54, _⟩ => ⟨S_, .i32⟩
  | .hbm, ⟨55, _⟩ => ⟨S3400000, .i32⟩
  | .hbm, ⟨56, _⟩ => ⟨S3400000, .i32⟩
  | .hbm, ⟨57, _⟩ => ⟨S3400000, .i32⟩
  | .hbm, ⟨58, _⟩ => ⟨S3400000x1, .i32⟩
  | .hbm, ⟨59, _⟩ => ⟨S3400000x16, .f32⟩
  | .hbm, ⟨60, _⟩ => ⟨S3400000x16, .f32⟩
  | .hbm, ⟨61, _⟩ => ⟨S3400000x16, .f32⟩
  | .hbm, ⟨62, _⟩ => ⟨S_, .f32⟩
  | .hbm, ⟨63, _⟩ => ⟨S200000x16, .f32⟩
  | .hbm, ⟨64, _⟩ => ⟨S3400000x1, .i32⟩
  | .hbm, ⟨65, _⟩ => ⟨S200000x16, .f32⟩
  | .hbm, ⟨66, _⟩ => ⟨S1x16, .f32⟩
  | .hbm, ⟨67, _⟩ => ⟨S200000x2, .f32⟩
  | .hbm, ⟨68, _⟩ => ⟨S_, .i32⟩
  | .hbm, ⟨69, _⟩ => ⟨S3400000, .i32⟩
  | .hbm, ⟨70, _⟩ => ⟨S3400000, .i1⟩
  | .hbm, ⟨71, _⟩ => ⟨S_, .i32⟩
  | .hbm, ⟨72, _⟩ => ⟨S3400000, .i32⟩
  | .hbm, ⟨73, _⟩ => ⟨S3400000, .i32⟩
  | .hbm, ⟨74, _⟩ => ⟨S3400000, .i32⟩
  | .hbm, ⟨75, _⟩ => ⟨S3400000x1, .i32⟩
  | .hbm, ⟨76, _⟩ => ⟨S3400000x2, .f32⟩
  | .hbm, ⟨77, _⟩ => ⟨S3400000x2, .f32⟩
  | .hbm, ⟨78, _⟩ => ⟨S3400000x2, .f32⟩
  | .hbm, ⟨79, _⟩ => ⟨S_, .f32⟩
  | .hbm, ⟨80, _⟩ => ⟨S200000x2, .f32⟩
  | .hbm, ⟨81, _⟩ => ⟨S3400000x1, .i32⟩
  | .hbm, ⟨82, _⟩ => ⟨S200000x2, .f32⟩
  | .hbm, ⟨83, _⟩ => ⟨S1x2, .f32⟩
  | .hbm, ⟨84, _⟩ => ⟨S200000x2, .f32⟩
  | .local _ .vmem, ⟨0, _⟩ => ⟨S4000x16, .f32⟩
  | .local _ .vmem, ⟨1, _⟩ => ⟨S4000x16, .f32⟩
  | .local _ .vmem, ⟨2, _⟩ => ⟨S16x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x2, .f32⟩
  | .local _ .vmem, ⟨9, _⟩ => ⟨S4000x2, .f32⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S1x2, .f32⟩
  | .local _ .vmem, ⟨14, _⟩ => ⟨S4000x2, .f32⟩
  | .local _ .vmem, ⟨15, _⟩ => ⟨S4000x2, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x2_S16x2_0_0 : ∀ a, (![0, 0] : Fin 2 → Nat) a + S16x2.size a ≤ S16x2.size a
  h_S16x2 : 0 < S16x2.numel
  inb_S4000x2_S4000x2_0_0 : ∀ a, (![0, 0] : Fin 2 → Nat) a + S4000x2.size a ≤ S4000x2.size a
  h_S4000x2 : 0 < S4000x2.numel
  bcast_S3400000x1_S3400000x2_0_1 : S3400000x1.BroadcastsInDim S3400000x2 (![0, 1] : Fin 2 → Fin S3400000x2.rank)
  bcast_S_S200000x2 : S_.BroadcastsInDim S200000x2 (![] : Fin 0 → Fin S200000x2.rank)
  shapeCasts_S2_S1x2 : S2.ShapeCasts S1x2
  shapeCasts_S4000x2_S4000x2 : S4000x2.ShapeCasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S4000x16_S16x16_S4000x16_1_0_0_1_n_n_wf : DotDims.WF S4000x16 S16x16 S4000x16 [1] [0] [0] [1] [] []
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  dot_S4000x16_S16x2_S4000x2_1_0_0_1_n_n_wf : DotDims.WF S4000x16 S16x2 S4000x2 [1] [0] [0] [1] [] []
  gather_S200000x2_S3400000x1_S3400000x2_1_0_n_n_0_1_12_wf : GatherDims.WF S200000x2 S3400000x1 S3400000x2 [1] [0] [] [0] [] 1 ![1, 2]
  scatter_S200000x2_S3400000x1_S3400000x2_1_0_0_1_wf : ScatterDims.WF S200000x2 S3400000x1 S3400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S200000x16.size a
  hwx0_0 : ∀ i : grid0.Coords, EltTy.bits .f32 = 32 ∨ (Rect.block (s := S200000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S200000x16.size a
  hwx0_2 : ∀ i : grid0.Coords, EltTy.bits .f32 = 32 ∨ (Rect.block (s := S200000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x2.size a ≤ S200000x2.size a
  hwx1_3 : ∀ i : grid1.Coords, EltTy.bits .f32 = 32 ∨ (Rect.block (s := S200000x2) S4000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x2.size a ≤ S200000x2.size a
  hwx2_0 : ∀ i : grid2.Coords, EltTy.bits .f32 = 32 ∨ (Rect.block (s := S200000x2) S4000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x2.size a ≤ S200000x2.size a
  hwx2_2 : ∀ i : grid2.Coords, EltTy.bits .f32 = 32 ∨ (Rect.block (s := S200000x2) S4000x2.size (cc2_transform_2 i) (hinb2_2 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def dot_S4000x16_S16x2_S4000x2_1_0_0_1_n_n : DotDims S4000x16 S16x2 S4000x2 where
  lhsContracting := [1]
  rhsContracting := [0]
  lhsNonContracting := [0]
  rhsNonContracting := [1]
  lhsBatch := []
  rhsBatch := []
  wf := dot_S4000x16_S16x2_S4000x2_1_0_0_1_n_n_wf
def gather_S200000x2_S3400000x1_S3400000x2_1_0_n_n_0_1_12 : GatherDims S200000x2 S3400000x1 S3400000x2 where
  offsetDims := [1]
  collapsedSliceDims := [0]
  operandBatchingDims := []
  startIndicesBatchingDims := []
  startIndexMap := [0]
  indexVectorDim := 1
  sliceSizes := ![1, 2]
  wf := gather_S200000x2_S3400000x1_S3400000x2_1_0_n_n_0_1_12_wf
def scatter_S200000x2_S3400000x1_S3400000x2_1_0_0_1 : ScatterDims S200000x2 S3400000x1 S3400000x2 where
  updateWindowDims := [1]
  insertedWindowDims := [0]
  scatterDimsToOperandDims := [0]
  indexVectorDim := 1
  wf := scatter_S200000x2_S3400000x1_S3400000x2_1_0_0_1_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S4000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S3400000x16 : Shape := ⟨2, ![3400000, 16]⟩
abbrev S1x16 : Shape := ⟨2, ![1, 16]⟩
abbrev S200000x2 : Shape := ⟨2, ![200000, 2]⟩
abbrev S3400000x2 : Shape := ⟨2, ![3400000, 2]⟩
abbrev S1x2 : Shape := ⟨2, ![1, 2]⟩
abbrev S200000x1 : Shape := ⟨2, ![200000, 1]⟩

abbrev nBuf : Space → Nat
  | .hbm => 126
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S200000, .i32⟩
  | .hbm, ⟨7, _⟩ => ⟨S1x3200000, .i32⟩
  | .hbm, ⟨8, _⟩ => ⟨S3200000, .i32⟩
  | .hbm, ⟨9, _⟩ => ⟨S3400000, .i32⟩
  | .hbm, ⟨10, _⟩ => ⟨S1x3200000, .i32⟩
  | .hbm, ⟨11, _⟩ => ⟨S3200000, .i32⟩
  | .hbm, ⟨12, _⟩ => ⟨S3400000, .i32⟩
  | .hbm, ⟨13, _⟩ => ⟨S_, .f32⟩
  | .hbm, ⟨14, _⟩ => ⟨S3400000, .f32⟩
  | .hbm, ⟨15, _⟩ => ⟨S_, .f32⟩
  | .hbm, ⟨16, _⟩ => ⟨S200000, .f32⟩
  | .hbm, ⟨17, _⟩ => ⟨S3400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000x16, .f32⟩
  | .hbm, ⟨31, _⟩ => ⟨S_, .i32⟩
  | .hbm, ⟨32, _⟩ => ⟨S3400000, .i32⟩
  | .hbm, ⟨33, _⟩ => ⟨S3400000, .i1⟩
  | .hbm, ⟨34, _⟩ => ⟨S_, .i32⟩
  | .hbm, ⟨35, _⟩ => ⟨S3400000, .i32⟩
  | .hbm, ⟨36, _⟩ => ⟨S3400000, .i32⟩
  | .hbm, ⟨37, _⟩ => ⟨S3400000, .i32⟩
  | .hbm, ⟨38, _⟩ => ⟨S3400000x1, .i32⟩
  | .hbm, ⟨39, _⟩ => ⟨S3400000, .f32⟩
  | .hbm, ⟨40, _⟩ => ⟨S_, .i32⟩
  | .hbm, ⟨41, _⟩ => ⟨S3400000, .i32⟩
  | .hbm, ⟨42, _⟩ => ⟨S3400000, .i1⟩
  | .hbm, ⟨43, _⟩ => ⟨S_, .i32⟩
  | .hbm, ⟨44, _⟩ => ⟨S3400000, .i32⟩
  | .hbm, ⟨45, _⟩ => ⟨S3400000, .i32⟩
  | .hbm, ⟨46, _⟩ => ⟨S3400000, .i32⟩
  | .hbm, ⟨47, _⟩ => ⟨S3400000x1, .i32⟩
  | .hbm, ⟨48, _⟩ => ⟨S3400000, .f32⟩
  | .hbm, ⟨49, _⟩ => ⟨S3400000, .f32⟩
  | .hbm, ⟨50, _⟩ => ⟨S3400000x1, .f32⟩
  | .hbm, ⟨51, _⟩ => ⟨S_, .i32⟩
  | .hbm, ⟨52, _⟩ => ⟨S3400000, .i32⟩
  | .hbm, ⟨53, _⟩ => ⟨S3400000, .i1⟩
  | .hbm, ⟨54, _⟩ => ⟨S_, .i32⟩
  | .hbm, ⟨55, _⟩ => ⟨S3400000, .i32⟩
  | .hbm, ⟨56, _⟩ => ⟨S3400000, .i32⟩
  | .hbm, ⟨57, _⟩ => ⟨S3400000, .i32⟩
  | .hbm, ⟨58, _⟩ => ⟨S3400000x1, .i32⟩
  | .hbm, ⟨59, _⟩ => ⟨S3400000x16, .f32⟩
  | .hbm, ⟨60, _⟩ => ⟨S3400000x16, .f32⟩
  | .hbm, ⟨61, _⟩ => ⟨S3400000x16, .f32⟩
  | .hbm, ⟨62, _⟩ => ⟨S_, .f32⟩
  | .hbm, ⟨63, _⟩ => ⟨S200000x16, .f32⟩
  | .hbm, ⟨64, _⟩ => ⟨S3400000x1, .i32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S_, .f32⟩
  | .hbm, ⟨70, _⟩ => ⟨S200000x16, .f32⟩
  | .hbm, ⟨71, _⟩ => ⟨S200000x16, .f32⟩
  | .hbm, ⟨72, _⟩ => ⟨S200000x2, .f32⟩
  | .hbm, ⟨73, _⟩ => ⟨S_, .i32⟩
  | .hbm, ⟨74, _⟩ => ⟨S3400000, .i32⟩
  | .hbm, ⟨75, _⟩ => ⟨S3400000, .i1⟩
  | .hbm, ⟨76, _⟩ => ⟨S_, .i32⟩
  | .hbm, ⟨77, _⟩ => ⟨S3400000, .i32⟩
  | .hbm, ⟨78, _⟩ => ⟨S3400000, .i32⟩
  | .hbm, ⟨79, _⟩ => ⟨S3400000, .i32⟩
  | .hbm, ⟨80, _⟩ => ⟨S3400000x1, .i32⟩
  | .hbm, ⟨81, _⟩ => ⟨S3400000, .f32⟩
  | .hbm, ⟨82, _⟩ => ⟨S_, .i32⟩
  | .hbm, ⟨83, _⟩ => ⟨S3400000, .i32⟩
  | .hbm, ⟨84, _⟩ => ⟨S3400000, .i1⟩
  | .hbm, ⟨85, _⟩ => ⟨S_, .i32⟩
  | .hbm, ⟨86, _⟩ => ⟨S3400000, .i32⟩
  | .hbm, ⟨87, _⟩ => ⟨S3400000, .i32⟩
  | .hbm, ⟨88, _⟩ => ⟨S3400000, .i32⟩
  | .hbm, ⟨89, _⟩ => ⟨S3400000x1, .i32⟩
  | .hbm, ⟨90, _⟩ => ⟨S3400000, .f32⟩
  | .hbm, ⟨91, _⟩ => ⟨S3400000, .f32⟩
  | .hbm, ⟨92, _⟩ => ⟨S3400000x1, .f32⟩
  | .hbm, ⟨93, _⟩ => ⟨S_, .i32⟩
  | .hbm, ⟨94, _⟩ => ⟨S3400000, .i32⟩
  | .hbm, ⟨95, _⟩ => ⟨S3400000, .i1⟩
  | .hbm, ⟨96, _⟩ => ⟨S_, .i32⟩
  | .hbm, ⟨97, _⟩ => ⟨S3400000, .i32⟩
  | .hbm, ⟨98, _⟩ => ⟨S3400000, .i32⟩
  | .hbm, ⟨99, _⟩ => ⟨S3400000, .i32⟩
  | .hbm, ⟨100, _⟩ => ⟨S3400000x1, .i32⟩
  | .hbm, ⟨101, _⟩ => ⟨S3400000x2, .f32⟩
  | .hbm, ⟨102, _⟩ => ⟨S3400000x2, .f32⟩
  | .hbm, ⟨103, _⟩ => ⟨S3400000x2, .f32⟩
  | .hbm, ⟨104, _⟩ => ⟨S_, .f32⟩
  | .hbm, ⟨105, _⟩ => ⟨S200000x2, .f32⟩
  | .hbm, ⟨106, _⟩ => ⟨S3400000x1, .i32⟩
  | .hbm, ⟨107, _⟩ => ⟨S200000x2, .f32⟩
  | .hbm, ⟨108, _⟩ => ⟨S1x2, .f32⟩
  | .hbm, ⟨109, _⟩ => ⟨S200000x2, .f32⟩
  | .hbm, ⟨110, _⟩ => ⟨S200000x2, .f32⟩
  | .hbm, ⟨111, _⟩ => ⟨S_, .f32⟩
  | .hbm, ⟨112, _⟩ => ⟨S200000, .f32⟩
  | .hbm, ⟨113, _⟩ => ⟨S_, .f32⟩
  | .hbm, ⟨114, _⟩ => ⟨S200000, .f32⟩
  | .hbm, ⟨115, _⟩ => ⟨S200000, .f32⟩
  | .hbm, ⟨116, _⟩ => ⟨S200000x1, .f32⟩
  | .hbm, ⟨117, _⟩ => ⟨S200000x2, .f32⟩
  | .hbm, ⟨118, _⟩ => ⟨S200000x2, .f32⟩
  | .hbm, ⟨119, _⟩ => ⟨S200000x2, .f32⟩
  | .hbm, ⟨120, _⟩ => ⟨S_, .f32⟩
  | .hbm, ⟨121, _⟩ => ⟨S200000, .f32⟩
  | .hbm, ⟨122, _⟩ => ⟨S200000x1, .f32⟩
  | .hbm, ⟨123, _⟩ => ⟨S200000x1, .f32⟩
  | .hbm, ⟨124, _⟩ => ⟨S200000x2, .f32⟩
  | .hbm, ⟨125, _⟩ => ⟨S200000x2, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S3400000x1_S3400000x2_0_1 : S3400000x1.BroadcastsInDim S3400000x2 (![0, 1] : Fin 2 → Fin S3400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  scatter_S200000_S3400000x1_S3400000_n_0_0_1_wf : ScatterDims.WF S200000 S3400000x1 S3400000 [] [0] [0] 1
  dot_S200000x16_S16x16_S200000x16_1_0_0_1_n_n_wf : DotDims.WF S200000x16 S16x16 S200000x16 [1] [0] [0] [1] [] []
  gather_S200000_S3400000x1_S3400000_n_0_n_n_0_1_1_wf : GatherDims.WF S200000 S3400000x1 S3400000 [] [0] [] [0] [] 1 ![1]
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  dot_S200000x16_S16x2_S200000x2_1_0_0_1_n_n_wf : DotDims.WF S200000x16 S16x2 S200000x2 [1] [0] [0] [1] [] []
  gather_S200000x2_S3400000x1_S3400000x2_1_0_n_n_0_1_12_wf : GatherDims.WF S200000x2 S3400000x1 S3400000x2 [1] [0] [] [0] [] 1 ![1, 2]
  scatter_S200000x2_S3400000x1_S3400000x2_1_0_0_1_wf : ScatterDims.WF S200000x2 S3400000x1 S3400000x2 [1] [0] [0] 1

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S3400000x1_S3400000x2_1_0_n_n_0_1_12 : GatherDims S200000x2 S3400000x1 S3400000x2 where
  offsetDims := [1]
  collapsedSliceDims := [0]
  operandBatchingDims := []
  startIndicesBatchingDims := []
  startIndexMap := [0]
  indexVectorDim := 1
  sliceSizes := ![1, 2]
  wf := gather_S200000x2_S3400000x1_S3400000x2_1_0_n_n_0_1_12_wf
def scatter_S200000x2_S3400000x1_S3400000x2_1_0_0_1 : ScatterDims S200000x2 S3400000x1 S3400000x2 where
  updateWindowDims := [1]
  insertedWindowDims := [0]
  scatterDimsToOperandDims := [0]
  indexVectorDim := 1
  wf := scatter_S200000x2_S3400000x1_S3400000x2_1_0_0_1_wf

class Facts : Prop extends Facts₀ where

variable [Facts]
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.RefRun.lean ====
/-
  The reference's run, read stretch by stretch.

  The reference is 120 host operations in a row. What a buffer holds at the end is the fold of the operations over
  the launch memory; composed into one term of the arguments it loses all sharing (the edge lists alone occur sixteen
  times in the result's term). So the fold is read in eight stretches instead: after each stretch the buffers that
  later stretches read hold the stage values `val_<buffer>` of the arguments — the edge lists with the self-loops, the
  inverse square root of the degree, the first matrix product, the normalisation, the first layer's aggregated array,
  the second matrix product, the normalisation again, the second layer's aggregated array, the log-softmax — and a
  buffer a stretch does not write keeps its contents across it. Each step only composes the few operations of its
  stretch over values already named.
-/
import proofs.«163840_j22789096472662_2_alg».proof.Proof.RefRunP
import proofs.«163840_j22789096472662_2_alg».proof.Proof.RefReadP
import proofs.«163840_j22789096472662_2_alg».proof.Proof.LibHostRead
import Idealize.ShloMosaic.Lib.Pipeline.Frame
import Idealize.ShloMosaic.PureOps.Ideal

set_option maxRecDepth 16384

noncomputable section

namespace Cert.Gcn.RefRun

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP
open Cert.HostRead

/-! ## The operations, in eight stretches -/

section Stretches

variable {F : FTy → Type} [FloatOps F]

/-- Operations 1 to 24 of the reference: the edge lists with the self-loops, the degree and its inverse square root. -/
abbrev opsA : List (HloOp τ sig (Elt F)) :=
  [ nullary main_v0 (iotaInDim S200000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3400000 0 [⟨S3200000, a⟩, ⟨S200000, b⟩] concatenates_S3200000_S200000_S3400000_d0) : (⟨S3200000, .i32⟩ : BufTy).Contents (Elt F) → (⟨S200000, .i32⟩ : BufTy).Contents (Elt F) → (⟨S3400000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3400000 0 [⟨S3200000, a⟩, ⟨S200000, b⟩] concatenates_S3200000_S200000_S3400000_d0) : (⟨S3200000, .i32⟩ : BufTy).Contents (Elt F) → (⟨S200000, .i32⟩ : BufTy).Contents (Elt F) → (⟨S3400000, .i32⟩ : BufTy).Contents (Elt F)),
    nullary main_cst (constant S_ .f32 0x3F800000#32),
    unary main_cst main_v7 (broadcastInDim S3400000 ![] bcast_S_S3400000 : (⟨S_, .f32⟩ : BufTy).Contents (Elt F) → (⟨S3400000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S3400000x1 ![0] bcast_S3400000_S3400000x1_0 : (⟨S3400000, .i32⟩ : BufTy).Contents (Elt F) → (⟨S3400000x1, .i32⟩ : BufTy).Contents (Elt F)),
    ternary main_v8 main_v9 main_v7 main_v10 ((fun x i u => Host.scatterAdd scatter_S200000_S3400000x1_S3400000_n_0_0_1 x i u) : (⟨S200000, .f32⟩ : BufTy).Contents (Elt F) → (⟨S3400000x1, .i32⟩ : BufTy).Contents (Elt F) → (⟨S3400000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x3F800000#32),
    unary main_cst_2 main_v13 (broadcastInDim S200000 ![] bcast_S_S200000 : (⟨S_, .f32⟩ : BufTy).Contents (Elt F) → (⟨S200000, .f32⟩ : BufTy).Contents (Elt F)),
    binary main_v10 main_v13 main_v14 (maximumf : (⟨S200000, .f32⟩ : BufTy).Contents (Elt F) → (⟨S200000, .f32⟩ : BufTy).Contents (Elt F) → (⟨S200000, .f32⟩ : BufTy).Contents (Elt F)),
    unary main_v14 main_v15 (Host.rsqrt : (⟨S200000, .f32⟩ : BufTy).Contents (Elt F) → (⟨S200000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v12) (TRef.of (T := ⟨S200000, .f32⟩) main_v15) (TRef.of (T := ⟨S200000, .f32⟩) main_call0_v1) (TRef.of (T := ⟨S200000, .f32⟩) main_v16) select ]

/-- Operations 25 to 25 of the reference: the first matrix product. -/
abbrev opsB : List (HloOp τ sig (Elt F)) :=
  [ binary main_arg0 main_arg1 main_v17 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)) ]

/-- Operations 26 to 45 of the reference: the normalisation, first time. -/
abbrev opsC : List (HloOp τ sig (Elt F)) :=
  [ nullary main_c (constantI S_ 32 0#32),
    unary main_c main_v18 (broadcastInDim S3400000 ![] bcast_S_S3400000 : (⟨S_, .i32⟩ : BufTy).Contents (Elt F) → (⟨S3400000, .i32⟩ : BufTy).Contents (Elt F)),
    binary main_v3 main_v18 main_v19 (cmpi .slt : (⟨S3400000, .i32⟩ : BufTy).Contents (Elt F) → (⟨S3400000, .i32⟩ : BufTy).Contents (Elt F) → (⟨S3400000, .i1⟩ : BufTy).Contents (Elt F)),
    nullary main_c_4 (constantI S_ 32 200000#32),
    unary main_c_4 main_v20 (broadcastInDim S3400000 ![] bcast_S_S3400000 : (⟨S_, .i32⟩ : BufTy).Contents (Elt F) → (⟨S3400000, .i32⟩ : BufTy).Contents (Elt F)),
    binary main_v3 main_v20 main_v21 (addi : (⟨S3400000, .i32⟩ : BufTy).Contents (Elt F) → (⟨S3400000, .i32⟩ : BufTy).Contents (Elt F) → (⟨S3400000, .i32⟩ : BufTy).Contents (Elt F)),
    ternary main_v19 main_v21 main_v3 main_v22 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v22 main_v23 (broadcastInDim S3400000x1 ![0] bcast_S3400000_S3400000x1_0 : (⟨S3400000, .i32⟩ : BufTy).Contents (Elt F) → (⟨S3400000x1, .i32⟩ : BufTy).Contents (Elt F)),
    binary main_v16 main_v23 main_v24 ((fun x i => Host.gather gather_S200000_S3400000x1_S3400000_n_0_n_n_0_1_1 x i) : (⟨S200000, .f32⟩ : BufTy).Contents (Elt F) → (⟨S3400000x1, .i32⟩ : BufTy).Contents (Elt F) → (⟨S3400000, .f32⟩ : BufTy).Contents (Elt F)),
    nullary main_c_5 (constantI S_ 32 0#32),
    unary main_c_5 main_v25 (broadcastInDim S3400000 ![] bcast_S_S3400000 : (⟨S_, .i32⟩ : BufTy).Contents (Elt F) → (⟨S3400000, .i32⟩ : BufTy).Contents (Elt F)),
    binary main_v6 main_v25 main_v26 (cmpi .slt : (⟨S3400000, .i32⟩ : BufTy).Contents (Elt F) → (⟨S3400000, .i32⟩ : BufTy).Contents (Elt F) → (⟨S3400000, .i1⟩ : BufTy).Contents (Elt F)),
    nullary main_c_6 (constantI S_ 32 200000#32),
    unary main_c_6 main_v27 (broadcastInDim S3400000 ![] bcast_S_S3400000 : (⟨S_, .i32⟩ : BufTy).Contents (Elt F) → (⟨S3400000, .i32⟩ : BufTy).Contents (Elt F)),
    binary main_v6 main_v27 main_v28 (addi : (⟨S3400000, .i32⟩ : BufTy).Contents (Elt F) → (⟨S3400000, .i32⟩ : BufTy).Contents (Elt F) → (⟨S3400000, .i32⟩ : BufTy).Contents (Elt F)),
    ternary main_v26 main_v28 main_v6 main_v29 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v29 main_v30 (broadcastInDim S3400000x1 ![0] bcast_S3400000_S3400000x1_0 : (⟨S3400000, .i32⟩ : BufTy).Contents (Elt F) → (⟨S3400000x1, .i32⟩ : BufTy).Contents (Elt F)),
    binary main_v16 main_v30 main_v31 ((fun x i => Host.gather gather_S200000_S3400000x1_S3400000_n_0_n_n_0_1_1 x i) : (⟨S200000, .f32⟩ : BufTy).Contents (Elt F) → (⟨S3400000x1, .i32⟩ : BufTy).Contents (Elt F) → (⟨S3400000, .f32⟩ : BufTy).Contents (Elt F)),
    binary main_v24 main_v31 main_v32 (mulf : (⟨S3400000, .f32⟩ : BufTy).Contents (Elt F) → (⟨S3400000, .f32⟩ : BufTy).Contents (Elt F) → (⟨S3400000, .f32⟩ : BufTy).Contents (Elt F)),
    unary main_v32 main_v33 (broadcastInDim S3400000x1 ![0] bcast_S3400000_S3400000x1_0 : (⟨S3400000, .f32⟩ : BufTy).Contents (Elt F) → (⟨S3400000x1, .f32⟩ : BufTy).Contents (Elt F)) ]

/-- Operations 46 to 60 of the reference: the first aggregation. -/
abbrev opsD : List (HloOp τ sig (Elt F)) :=
  [ nullary main_c_7 (constantI S_ 32 0#32),
    unary main_c_7 main_v34 (broadcastInDim S3400000 ![] bcast_S_S3400000 : (⟨S_, .i32⟩ : BufTy).Contents (Elt F) → (⟨S3400000, .i32⟩ : BufTy).Contents (Elt F)),
    binary main_v3 main_v34 main_v35 (cmpi .slt : (⟨S3400000, .i32⟩ : BufTy).Contents (Elt F) → (⟨S3400000, .i32⟩ : BufTy).Contents (Elt F) → (⟨S3400000, .i1⟩ : BufTy).Contents (Elt F)),
    nullary main_c_8 (constantI S_ 32 200000#32),
    unary main_c_8 main_v36 (broadcastInDim S3400000 ![] bcast_S_S3400000 : (⟨S_, .i32⟩ : BufTy).Contents (Elt F) → (⟨S3400000, .i32⟩ : BufTy).Contents (Elt F)),
    binary main_v3 main_v36 main_v37 (addi : (⟨S3400000, .i32⟩ : BufTy).Contents (Elt F) → (⟨S3400000, .i32⟩ : BufTy).Contents (Elt F) → (⟨S3400000, .i32⟩ : BufTy).Contents (Elt F)),
    ternary main_v35 main_v37 main_v3 main_v38 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v38 main_v39 (broadcastInDim S3400000x1 ![0] bcast_S3400000_S3400000x1_0 : (⟨S3400000, .i32⟩ : BufTy).Contents (Elt F) → (⟨S3400000x1, .i32⟩ : BufTy).Contents (Elt F)),
    binary main_v17 main_v39 main_v40 ((fun x i => Host.gather gather_S200000x16_S3400000x1_S3400000x16_1_0_n_n_0_1_116 x i) : (⟨S200000x16, .f32⟩ : BufTy).Contents (Elt F) → (⟨S3400000x1, .i32⟩ : BufTy).Contents (Elt F) → (⟨S3400000x16, .f32⟩ : BufTy).Contents (Elt F)),
    unary main_v33 main_v41 (broadcastInDim S3400000x16 ![0, 1] bcast_S3400000x1_S3400000x16_0_1 : (⟨S3400000x1, .f32⟩ : BufTy).Contents (Elt F) → (⟨S3400000x16, .f32⟩ : BufTy).Contents (Elt F)),
    binary main_v41 main_v40 main_v42 (mulf : (⟨S3400000x16, .f32⟩ : BufTy).Contents (Elt F) → (⟨S3400000x16, .f32⟩ : BufTy).Contents (Elt F) → (⟨S3400000x16, .f32⟩ : BufTy).Contents (Elt F)),
    nullary main_cst_9 (constant S_ .f32 0x00000000#32),
    unary main_cst_9 main_v43 (broadcastInDim S200000x16 ![] bcast_S_S200000x16 : (⟨S_, .f32⟩ : BufTy).Contents (Elt F) → (⟨S200000x16, .f32⟩ : BufTy).Contents (Elt F)),
    unary main_v6 main_v44 (broadcastInDim S3400000x1 ![0] bcast_S3400000_S3400000x1_0 : (⟨S3400000, .i32⟩ : BufTy).Contents (Elt F) → (⟨S3400000x1, .i32⟩ : BufTy).Contents (Elt F)),
    ternary main_v43 main_v44 main_v42 main_v45 ((fun x i u => Host.scatterAdd scatter_S200000x16_S3400000x1_S3400000x16_1_0_0_1 x i u) : (⟨S200000x16, .f32⟩ : BufTy).Contents (Elt F) → (⟨S3400000x1, .i32⟩ : BufTy).Contents (Elt F) → (⟨S3400000x16, .f32⟩ : BufTy).Contents (Elt F) → (⟨S200000x16, .f32⟩ : BufTy).Contents (Elt F)) ]

/-- Operations 61 to 67 of the reference: bias, rectifier and the second matrix product. -/
abbrev opsE : List (HloOp τ sig (Elt F)) :=
  [ unary main_arg2 main_v46 (broadcastInDim S1x16 ![1] bcast_S16_S1x16_1 : (⟨S16, .f32⟩ : BufTy).Contents (Elt F) → (⟨S1x16, .f32⟩ : BufTy).Contents (Elt F)),
    unary main_v46 main_v47 (broadcastInDim S200000x16 ![0, 1] bcast_S1x16_S200000x16_0_1 : (⟨S1x16, .f32⟩ : BufTy).Contents (Elt F) → (⟨S200000x16, .f32⟩ : BufTy).Contents (Elt F)),
    binary main_v45 main_v47 main_v48 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v48) (TRef.of (T := ⟨S200000x16, .f32⟩) main_call1_v0) (TRef.of (T := ⟨S200000x16, .f32⟩) main_v49) maximumf,
    binary main_v49 main_arg3 main_v50 ((fun l r => Host.dotGeneral dot_S200000x16_S16x2_S200000x2_1_0_0_1_n_n none l r) : (⟨S200000x16, .f32⟩ : BufTy).Contents (Elt F) → (⟨S16x2, .f32⟩ : BufTy).Contents (Elt F) → (⟨S200000x2, .f32⟩ : BufTy).Contents (Elt F)) ]

/-- Operations 68 to 87 of the reference: the normalisation, second time. -/
abbrev opsF : List (HloOp τ sig (Elt F)) :=
  [ nullary main_c_10 (constantI S_ 32 0#32),
    unary main_c_10 main_v51 (broadcastInDim S3400000 ![] bcast_S_S3400000 : (⟨S_, .i32⟩ : BufTy).Contents (Elt F) → (⟨S3400000, .i32⟩ : BufTy).Contents (Elt F)),
    binary main_v3 main_v51 main_v52 (cmpi .slt : (⟨S3400000, .i32⟩ : BufTy).Contents (Elt F) → (⟨S3400000, .i32⟩ : BufTy).Contents (Elt F) → (⟨S3400000, .i1⟩ : BufTy).Contents (Elt F)),
    nullary main_c_11 (constantI S_ 32 200000#32),
    unary main_c_11 main_v53 (broadcastInDim S3400000 ![] bcast_S_S3400000 : (⟨S_, .i32⟩ : BufTy).Contents (Elt F) → (⟨S3400000, .i32⟩ : BufTy).Contents (Elt F)),
    binary main_v3 main_v53 main_v54 (addi : (⟨S3400000, .i32⟩ : BufTy).Contents (Elt F) → (⟨S3400000, .i32⟩ : BufTy).Contents (Elt F) → (⟨S3400000, .i32⟩ : BufTy).Contents (Elt F)),
    ternary main_v52 main_v54 main_v3 main_v55 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v55 main_v56 (broadcastInDim S3400000x1 ![0] bcast_S3400000_S3400000x1_0 : (⟨S3400000, .i32⟩ : BufTy).Contents (Elt F) → (⟨S3400000x1, .i32⟩ : BufTy).Contents (Elt F)),
    binary main_v16 main_v56 main_v57 ((fun x i => Host.gather gather_S200000_S3400000x1_S3400000_n_0_n_n_0_1_1 x i) : (⟨S200000, .f32⟩ : BufTy).Contents (Elt F) → (⟨S3400000x1, .i32⟩ : BufTy).Contents (Elt F) → (⟨S3400000, .f32⟩ : BufTy).Contents (Elt F)),
    nullary main_c_12 (constantI S_ 32 0#32),
    unary main_c_12 main_v58 (broadcastInDim S3400000 ![] bcast_S_S3400000 : (⟨S_, .i32⟩ : BufTy).Contents (Elt F) → (⟨S3400000, .i32⟩ : BufTy).Contents (Elt F)),
    binary main_v6 main_v58 main_v59 (cmpi .slt : (⟨S3400000, .i32⟩ : BufTy).Contents (Elt F) → (⟨S3400000, .i32⟩ : BufTy).Contents (Elt F) → (⟨S3400000, .i1⟩ : BufTy).Contents (Elt F)),
    nullary main_c_13 (constantI S_ 32 200000#32),
    unary main_c_13 main_v60 (broadcastInDim S3400000 ![] bcast_S_S3400000 : (⟨S_, .i32⟩ : BufTy).Contents (Elt F) → (⟨S3400000, .i32⟩ : BufTy).Contents (Elt F)),
    binary main_v6 main_v60 main_v61 (addi : (⟨S3400000, .i32⟩ : BufTy).Contents (Elt F) → (⟨S3400000, .i32⟩ : BufTy).Contents (Elt F) → (⟨S3400000, .i32⟩ : BufTy).Contents (Elt F)),
    ternary main_v59 main_v61 main_v6 main_v62 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v62 main_v63 (broadcastInDim S3400000x1 ![0] bcast_S3400000_S3400000x1_0 : (⟨S3400000, .i32⟩ : BufTy).Contents (Elt F) → (⟨S3400000x1, .i32⟩ : BufTy).Contents (Elt F)),
    binary main_v16 main_v63 main_v64 ((fun x i => Host.gather gather_S200000_S3400000x1_S3400000_n_0_n_n_0_1_1 x i) : (⟨S200000, .f32⟩ : BufTy).Contents (Elt F) → (⟨S3400000x1, .i32⟩ : BufTy).Contents (Elt F) → (⟨S3400000, .f32⟩ : BufTy).Contents (Elt F)),
    binary main_v57 main_v64 main_v65 (mulf : (⟨S3400000, .f32⟩ : BufTy).Contents (Elt F) → (⟨S3400000, .f32⟩ : BufTy).Contents (Elt F) → (⟨S3400000, .f32⟩ : BufTy).Contents (Elt F)),
    unary main_v65 main_v66 (broadcastInDim S3400000x1 ![0] bcast_S3400000_S3400000x1_0 : (⟨S3400000, .f32⟩ : BufTy).Contents (Elt F) → (⟨S3400000x1, .f32⟩ : BufTy).Contents (Elt F)) ]

/-- Operations 88 to 102 of the reference: the second aggregation. -/
abbrev opsG : List (HloOp τ sig (Elt F)) :=
  [ nullary main_c_14 (constantI S_ 32 0#32),
    unary main_c_14 main_v67 (broadcastInDim S3400000 ![] bcast_S_S3400000 : (⟨S_, .i32⟩ : BufTy).Contents (Elt F) → (⟨S3400000, .i32⟩ : BufTy).Contents (Elt F)),
    binary main_v3 main_v67 main_v68 (cmpi .slt : (⟨S3400000, .i32⟩ : BufTy).Contents (Elt F) → (⟨S3400000, .i32⟩ : BufTy).Contents (Elt F) → (⟨S3400000, .i1⟩ : BufTy).Contents (Elt F)),
    nullary main_c_15 (constantI S_ 32 200000#32),
    unary main_c_15 main_v69 (broadcastInDim S3400000 ![] bcast_S_S3400000 : (⟨S_, .i32⟩ : BufTy).Contents (Elt F) → (⟨S3400000, .i32⟩ : BufTy).Contents (Elt F)),
    binary main_v3 main_v69 main_v70 (addi : (⟨S3400000, .i32⟩ : BufTy).Contents (Elt F) → (⟨S3400000, .i32⟩ : BufTy).Contents (Elt F) → (⟨S3400000, .i32⟩ : BufTy).Contents (Elt F)),
    ternary main_v68 main_v70 main_v3 main_v71 (select : (⟨S3400000, .i1⟩ : BufTy).Contents (Elt F) → (⟨S3400000, .i32⟩ : BufTy).Contents (Elt F) → (⟨S3400000, .i32⟩ : BufTy).Contents (Elt F) → (⟨S3400000, .i32⟩ : BufTy).Contents (Elt F)),
    unary main_v71 main_v72 (broadcastInDim S3400000x1 ![0] bcast_S3400000_S3400000x1_0 : (⟨S3400000, .i32⟩ : BufTy).Contents (Elt F) → (⟨S3400000x1, .i32⟩ : BufTy).Contents (Elt F)),
    binary main_v50 main_v72 main_v73 ((fun x i => Host.gather gather_S200000x2_S3400000x1_S3400000x2_1_0_n_n_0_1_12 x i) : (⟨S200000x2, .f32⟩ : BufTy).Contents (Elt F) → (⟨S3400000x1, .i32⟩ : BufTy).Contents (Elt F) → (⟨S3400000x2, .f32⟩ : BufTy).Contents (Elt F)),
    unary main_v66 main_v74 (broadcastInDim S3400000x2 ![0, 1] bcast_S3400000x1_S3400000x2_0_1 : (⟨S3400000x1, .f32⟩ : BufTy).Contents (Elt F) → (⟨S3400000x2, .f32⟩ : BufTy).Contents (Elt F)),
    binary main_v74 main_v73 main_v75 (mulf : (⟨S3400000x2, .f32⟩ : BufTy).Contents (Elt F) → (⟨S3400000x2, .f32⟩ : BufTy).Contents (Elt F) → (⟨S3400000x2, .f32⟩ : BufTy).Contents (Elt F)),
    nullary main_cst_16 (constant S_ .f32 0x00000000#32),
    unary main_cst_16 main_v76 (broadcastInDim S200000x2 ![] bcast_S_S200000x2 : (⟨S_, .f32⟩ : BufTy).Contents (Elt F) → (⟨S200000x2, .f32⟩ : BufTy).Contents (Elt F)),
    unary main_v6 main_v77 (broadcastInDim S3400000x1 ![0] bcast_S3400000_S3400000x1_0 : (⟨S3400000, .i32⟩ : BufTy).Contents (Elt F) → (⟨S3400000x1, .i32⟩ : BufTy).Contents (Elt F)),
    ternary main_v76 main_v77 main_v75 main_v78 ((fun x i u => Host.scatterAdd scatter_S200000x2_S3400000x1_S3400000x2_1_0_0_1 x i u) : (⟨S200000x2, .f32⟩ : BufTy).Contents (Elt F) → (⟨S3400000x1, .i32⟩ : BufTy).Contents (Elt F) → (⟨S3400000x2, .f32⟩ : BufTy).Contents (Elt F) → (⟨S200000x2, .f32⟩ : BufTy).Contents (Elt F)) ]

/-- Operations 103 to 120 of the reference: bias and the log-softmax. -/
abbrev opsH : List (HloOp τ sig (Elt F)) :=
  [ unary main_arg4 main_v79 (broadcastInDim S1x2 ![1] bcast_S2_S1x2_1 : (⟨S2, .f32⟩ : BufTy).Contents (Elt F) → (⟨S1x2, .f32⟩ : BufTy).Contents (Elt F)),
    unary main_v79 main_v80 (broadcastInDim S200000x2 ![0, 1] bcast_S1x2_S200000x2_0_1 : (⟨S1x2, .f32⟩ : BufTy).Contents (Elt F) → (⟨S200000x2, .f32⟩ : BufTy).Contents (Elt F)),
    binary main_v78 main_v80 main_v81 (addf : (⟨S200000x2, .f32⟩ : BufTy).Contents (Elt F) → (⟨S200000x2, .f32⟩ : BufTy).Contents (Elt F) → (⟨S200000x2, .f32⟩ : BufTy).Contents (Elt F)),
    TRef.nullary (TRef.of (T := ⟨S_, .f32⟩) main_call2_cst) (constant S_ .f32 0xFF800000#32),
    TRef.binary (TRef.of (T := ⟨S200000x2, .f32⟩) main_v81) (TRef.of (T := ⟨S_, .f32⟩) main_call2_cst) (TRef.of (T := ⟨S200000, .f32⟩) main_call2_v0) (fun x v => Host.reduce FloatOps.maximumf x v reducesTo_S200000x2_S200000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S200000, .f32⟩) main_call2_v1) (broadcastInDim S200000 ![] bcast_S_S200000),
    TRef.binary (TRef.of (T := ⟨S200000, .f32⟩) main_call2_v1) (TRef.of (T := ⟨S200000, .f32⟩) main_call2_v0) (TRef.of (T := ⟨S200000, .f32⟩) main_call2_v2) maximumf,
    TRef.unary (TRef.of (T := ⟨S200000, .f32⟩) main_call2_v2) (TRef.of (T := ⟨S200000x1, .f32⟩) main_call2_v3) (broadcastInDim S200000x1 ![0] bcast_S200000_S200000x1_0),
    TRef.unary (TRef.of (T := ⟨S200000x1, .f32⟩) main_call2_v3) (TRef.of (T := ⟨S200000x2, .f32⟩) main_call2_v4) (broadcastInDim S200000x2 ![0, 1] bcast_S200000x1_S200000x2_0_1),
    TRef.binary (TRef.of (T := ⟨S200000x2, .f32⟩) main_v81) (TRef.of (T := ⟨S200000x2, .f32⟩) main_call2_v4) (TRef.of (T := ⟨S200000x2, .f32⟩) main_call2_v5) subf,
    TRef.unary (TRef.of (T := ⟨S200000x2, .f32⟩) main_call2_v5) (TRef.of (T := ⟨S200000x2, .f32⟩) main_call2_v6) Host.exp,
    TRef.nullary (TRef.of (T := ⟨S_, .f32⟩) main_call2_cst_1) (constant S_ .f32 0x00000000#32),
    TRef.binary (TRef.of (T := ⟨S200000x2, .f32⟩) main_call2_v6) (TRef.of (T := ⟨S_, .f32⟩) main_call2_cst_1) (TRef.of (T := ⟨S200000, .f32⟩) main_call2_v7) (fun x v => Host.reduceAdd x v reducesTo_S200000x2_S200000_d1 h_S_),
    TRef.unary (TRef.of (T := ⟨S200000, .f32⟩) main_call2_v7) (TRef.of (T := ⟨S200000x1, .f32⟩) main_call2_v8) (broadcastInDim S200000x1 ![0] bcast_S200000_S200000x1_0),
    TRef.unary (TRef.of (T := ⟨S200000x1, .f32⟩) main_call2_v8) (TRef.of (T := ⟨S200000x1, .f32⟩) main_call2_v9) Host.log,
    TRef.unary (TRef.of (T := ⟨S200000x1, .f32⟩) main_call2_v9) (TRef.of (T := ⟨S200000x2, .f32⟩) main_call2_v10) (broadcastInDim S200000x2 ![0, 1] bcast_S200000x1_S200000x2_0_1),
    TRef.binary (TRef.of (T := ⟨S200000x2, .f32⟩) main_call2_v5) (TRef.of (T := ⟨S200000x2, .f32⟩) main_call2_v10) (TRef.of (T := ⟨S200000x2, .f32⟩) main_v82) subf ]

/-- The eight stretches in a row are the reference's operations. -/
theorem ops_eq : (ops : List (HloOp τ sig (Elt F))) = opsA ++ (opsB ++ (opsC ++ (opsD ++ (opsE ++ (opsF ++ (opsG ++ opsH)))))) := rfl

end Stretches

/-! ## The buffers at the boundaries -/

variable (m : (ℓ : Loc nD τ sig) → Buf (Elt Ideal) ℓ) (c : Dev nD)

/-- The buffers after stretch A. -/
def V1 : Valuation τ sig (Elt Ideal) := after opsA (launchContents m c)
/-- The buffers after stretch B. -/
def V2 : Valuation τ sig (Elt Ideal) := after opsB (V1 m c)
/-- The buffers after stretch C. -/
def V3 : Valuation τ sig (Elt Ideal) := after opsC (V2 m c)
/-- The buffers after stretch D. -/
def V4 : Valuation τ sig (Elt Ideal) := after opsD (V3 m c)
/-- The buffers after stretch E. -/
def V5 : Valuation τ sig (Elt Ideal) := after opsE (V4 m c)
/-- The buffers after stretch F. -/
def V6 : Valuation τ sig (Elt Ideal) := after opsF (V5 m c)
/-- The buffers after stretch G. -/
def V7 : Valuation τ sig (Elt Ideal) := after opsG (V6 m c)
/-- The buffers after stretch H. -/
def V8 : Valuation τ sig (Elt Ideal) := after opsH (V7 m c)

/-- The fold of all the operations is the last boundary. -/
theorem fold_eq : after ops (launchContents m c) = V8 m c := by
  rw [ops_eq, StableHlo.after_append, StableHlo.after_append, StableHlo.after_append, StableHlo.after_append,
    StableHlo.after_append, StableHlo.after_append, StableHlo.after_append]
  rfl

/-! ### After stretch A (the edge lists with the self-loops, the degree and its inverse square root) -/

theorem at1_v3 : V1 m c (Proc.devRef .tc main_v3) = val_main_v3 (F := Ideal) (m ((c.tc : Thread nD τ).loc main_arg5)) := by
  show after opsA (launchContents m c) (Proc.devRef .tc main_v3) = _
  simp only [opsA]
  read_results
  rfl

theorem at1_v6 : V1 m c (Proc.devRef .tc main_v6) = val_main_v6 (F := Ideal) (m ((c.tc : Thread nD τ).loc main_arg5)) := by
  show after opsA (launchContents m c) (Proc.devRef .tc main_v6) = _
  simp only [opsA]
  read_results
  rfl

theorem at1_v16 : V1 m c (Proc.devRef .tc main_v16) = val_main_v16 (F := Ideal) (m ((c.tc : Thread nD τ).loc main_arg5)) := by
  show after opsA (launchContents m c) (Proc.devRef .tc main_v16) = _
  simp only [opsA]
  read_results
  rfl

theorem at1_arg0 : V1 m c (Proc.devRef .tc main_arg0) = (m ((c.tc : Thread nD τ).loc main_arg0)) := by
  show after opsA (launchContents m c) (Proc.devRef .tc main_arg0) = _
  simp only [opsA]
  after_results_simp <;> rfl

theorem at1_arg1 : V1 m c (Proc.devRef .tc main_arg1) = (m ((c.tc : Thread nD τ).loc main_arg1)) := by
  show after opsA (launchContents m c) (Proc.devRef .tc main_arg1) = _
  simp only [opsA]
  after_results_simp <;> rfl

theorem at1_arg2 : V1 m c (Proc.devRef .tc main_arg2) = (m ((c.tc : Thread nD τ).loc main_arg2)) := by
  show after opsA (launchContents m c) (Proc.devRef .tc main_arg2) = _
  simp only [opsA]
  after_results_simp <;> rfl

theorem at1_arg3 : V1 m c (Proc.devRef .tc main_arg3) = (m ((c.tc : Thread nD τ).loc main_arg3)) := by
  show after opsA (launchContents m c) (Proc.devRef .tc main_arg3) = _
  simp only [opsA]
  after_results_simp <;> rfl

theorem at1_arg4 : V1 m c (Proc.devRef .tc main_arg4) = (m ((c.tc : Thread nD τ).loc main_arg4)) := by
  show after opsA (launchContents m c) (Proc.devRef .tc main_arg4) = _
  simp only [opsA]
  after_results_simp <;> rfl

/-! ### After stretch B (the first matrix product) -/

theorem at2_v17 : V2 m c (Proc.devRef .tc main_v17) = val_main_v17 (F := Ideal) (m ((c.tc : Thread nD τ).loc main_arg0)) (m ((c.tc : Thread nD τ).loc main_arg1)) := by
  show after opsB (V1 m c) (Proc.devRef .tc main_v17) = _
  simp only [opsB]
  read_results
  simp only [at1_arg0 m c, at1_arg1 m c]
  rfl

theorem at2_v3 : V2 m c (Proc.devRef .tc main_v3) = val_main_v3 (F := Ideal) (m ((c.tc : Thread nD τ).loc main_arg5)) := by
  show after opsB (V1 m c) (Proc.devRef .tc main_v3) = _
  simp only [opsB]
  after_results_simp
  exact at1_v3 m c

theorem at2_v6 : V2 m c (Proc.devRef .tc main_v6) = val_main_v6 (F := Ideal) (m ((c.tc : Thread nD τ).loc main_arg5)) := by
  show after opsB (V1 m c) (Proc.devRef .tc main_v6) = _
  simp only [opsB]
  after_results_simp
  exact at1_v6 m c

theorem at2_v16 : V2 m c (Proc.devRef .tc main_v16) = val_main_v16 (F := Ideal) (m ((c.tc : Thread nD τ).loc main_arg5)) := by
  show after opsB (V1 m c) (Proc.devRef .tc main_v16) = _
  simp only [opsB]
  after_results_simp
  exact at1_v16 m c

theorem at2_arg2 : V2 m c (Proc.devRef .tc main_arg2) = (m ((c.tc : Thread nD τ).loc main_arg2)) := by
  show after opsB (V1 m c) (Proc.devRef .tc main_arg2) = _
  simp only [opsB]
  after_results_simp
  exact at1_arg2 m c

theorem at2_arg3 : V2 m c (Proc.devRef .tc main_arg3) = (m ((c.tc : Thread nD τ).loc main_arg3)) := by
  show after opsB (V1 m c) (Proc.devRef .tc main_arg3) = _
  simp only [opsB]
  after_results_simp
  exact at1_arg3 m c

theorem at2_arg4 : V2 m c (Proc.devRef .tc main_arg4) = (m ((c.tc : Thread nD τ).loc main_arg4)) := by
  show after opsB (V1 m c) (Proc.devRef .tc main_arg4) = _
  simp only [opsB]
  after_results_simp
  exact at1_arg4 m c

/-! ### After stretch C (the normalisation, first time) -/

theorem at3_v33 : V3 m c (Proc.devRef .tc main_v33) = val_main_v33 (F := Ideal) (m ((c.tc : Thread nD τ).loc main_arg5)) := by
  show after opsC (V2 m c) (Proc.devRef .tc main_v33) = _
  simp only [opsC]
  read_results
  simp only [at2_v3 m c, at2_v6 m c, at2_v16 m c]
  rfl

theorem at3_v3 : V3 m c (Proc.devRef .tc main_v3) = val_main_v3 (F := Ideal) (m ((c.tc : Thread nD τ).loc main_arg5)) := by
  show after opsC (V2 m c) (Proc.devRef .tc main_v3) = _
  simp only [opsC]
  after_results_simp
  exact at2_v3 m c

theorem at3_v6 : V3 m c (Proc.devRef .tc main_v6) = val_main_v6 (F := Ideal) (m ((c.tc : Thread nD τ).loc main_arg5)) := by
  show after opsC (V2 m c) (Proc.devRef .tc main_v6) = _
  simp only [opsC]
  after_results_simp
  exact at2_v6 m c

theorem at3_v16 : V3 m c (Proc.devRef .tc main_v16) = val_main_v16 (F := Ideal) (m ((c.tc : Thread nD τ).loc main_arg5)) := by
  show after opsC (V2 m c) (Proc.devRef .tc main_v16) = _
  simp only [opsC]
  after_results_simp
  exact at2_v16 m c

theorem at3_v17 : V3 m c (Proc.devRef .tc main_v17) = val_main_v17 (F := Ideal) (m ((c.tc : Thread nD τ).loc main_arg0)) (m ((c.tc : Thread nD τ).loc main_arg1)) := by
  show after opsC (V2 m c) (Proc.devRef .tc main_v17) = _
  simp only [opsC]
  after_results_simp
  exact at2_v17 m c

theorem at3_arg2 : V3 m c (Proc.devRef .tc main_arg2) = (m ((c.tc : Thread nD τ).loc main_arg2)) := by
  show after opsC (V2 m c) (Proc.devRef .tc main_arg2) = _
  simp only [opsC]
  after_results_simp
  exact at2_arg2 m c

theorem at3_arg3 : V3 m c (Proc.devRef .tc main_arg3) = (m ((c.tc : Thread nD τ).loc main_arg3)) := by
  show after opsC (V2 m c) (Proc.devRef .tc main_arg3) = _
  simp only [opsC]
  after_results_simp
  exact at2_arg3 m c

theorem at3_arg4 : V3 m c (Proc.devRef .tc main_arg4) = (m ((c.tc : Thread nD τ).loc main_arg4)) := by
  show after opsC (V2 m c) (Proc.devRef .tc main_arg4) = _
  simp only [opsC]
  after_results_simp
  exact at2_arg4 m c

/-! ### After stretch D (the first aggregation) -/

theorem at4_v45 : V4 m c (Proc.devRef .tc main_v45) = val_main_v45 (F := Ideal) (m ((c.tc : Thread nD τ).loc main_arg0)) (m ((c.tc : Thread nD τ).loc main_arg1)) (m ((c.tc : Thread nD τ).loc main_arg5)) := by
  show after opsD (V3 m c) (Proc.devRef .tc main_v45) = _
  simp only [opsD]
  read_results
  simp only [at3_v3 m c, at3_v6 m c, at3_v17 m c, at3_v33 m c]
  rfl

theorem at4_v3 : V4 m c (Proc.devRef .tc main_v3) = val_main_v3 (F := Ideal) (m ((c.tc : Thread nD τ).loc main_arg5)) := by
  show after opsD (V3 m c) (Proc.devRef .tc main_v3) = _
  simp only [opsD]
  after_results_simp
  exact at3_v3 m c

theorem at4_v6 : V4 m c (Proc.devRef .tc main_v6) = val_main_v6 (F := Ideal) (m ((c.tc : Thread nD τ).loc main_arg5)) := by
  show after opsD (V3 m c) (Proc.devRef .tc main_v6) = _
  simp only [opsD]
  after_results_simp
  exact at3_v6 m c

theorem at4_v16 : V4 m c (Proc.devRef .tc main_v16) = val_main_v16 (F := Ideal) (m ((c.tc : Thread nD τ).loc main_arg5)) := by
  show after opsD (V3 m c) (Proc.devRef .tc main_v16) = _
  simp only [opsD]
  after_results_simp
  exact at3_v16 m c

theorem at4_arg2 : V4 m c (Proc.devRef .tc main_arg2) = (m ((c.tc : Thread nD τ).loc main_arg2)) := by
  show after opsD (V3 m c) (Proc.devRef .tc main_arg2) = _
  simp only [opsD]
  after_results_simp
  exact at3_arg2 m c

theorem at4_arg3 : V4 m c (Proc.devRef .tc main_arg3) = (m ((c.tc : Thread nD τ).loc main_arg3)) := by
  show after opsD (V3 m c) (Proc.devRef .tc main_arg3) = _
  simp only [opsD]
  after_results_simp
  exact at3_arg3 m c

theorem at4_arg4 : V4 m c (Proc.devRef .tc main_arg4) = (m ((c.tc : Thread nD τ).loc main_arg4)) := by
  show after opsD (V3 m c) (Proc.devRef .tc main_arg4) = _
  simp only [opsD]
  after_results_simp
  exact at3_arg4 m c

/-! ### After stretch E (bias, rectifier and the second matrix product) -/

theorem at5_v50 : V5 m c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  show after opsE (V4 m c) (Proc.devRef .tc main_v50) = _
  simp only [opsE]
  read_results
  simp only [at4_v45 m c, at4_arg2 m c, at4_arg3 m c]
  rfl

theorem at5_v3 : V5 m c (Proc.devRef .tc main_v3) = val_main_v3 (F := Ideal) (m ((c.tc : Thread nD τ).loc main_arg5)) := by
  show after opsE (V4 m c) (Proc.devRef .tc main_v3) = _
  simp only [opsE]
  after_results_simp
  exact at4_v3 m c

theorem at5_v6 : V5 m c (Proc.devRef .tc main_v6) = val_main_v6 (F := Ideal) (m ((c.tc : Thread nD τ).loc main_arg5)) := by
  show after opsE (V4 m c) (Proc.devRef .tc main_v6) = _
  simp only [opsE]
  after_results_simp
  exact at4_v6 m c

theorem at5_v16 : V5 m c (Proc.devRef .tc main_v16) = val_main_v16 (F := Ideal) (m ((c.tc : Thread nD τ).loc main_arg5)) := by
  show after opsE (V4 m c) (Proc.devRef .tc main_v16) = _
  simp only [opsE]
  after_results_simp
  exact at4_v16 m c

theorem at5_arg4 : V5 m c (Proc.devRef .tc main_arg4) = (m ((c.tc : Thread nD τ).loc main_arg4)) := by
  show after opsE (V4 m c) (Proc.devRef .tc main_arg4) = _
  simp only [opsE]
  after_results_simp
  exact at4_arg4 m c

/-! ### After stretch F (the normalisation, second time) -/

theorem at6_v66 : V6 m c (Proc.devRef .tc main_v66) = val_main_v66 (F := Ideal) (m ((c.tc : Thread nD τ).loc main_arg5)) := by
  show after opsF (V5 m c) (Proc.devRef .tc main_v66) = _
  simp only [opsF]
  read_results
  simp only [at5_v3 m c, at5_v6 m c, at5_v16 m c]
  rfl

theorem at6_v3 : V6 m c (Proc.devRef .tc main_v3) = val_main_v3 (F := Ideal) (m ((c.tc : Thread nD τ).loc main_arg5)) := by
  show after opsF (V5 m c) (Proc.devRef .tc main_v3) = _
  simp only [opsF]
  after_results_simp
  exact at5_v3 m c

theorem at6_v6 : V6 m c (Proc.devRef .tc main_v6) = val_main_v6 (F := Ideal) (m ((c.tc : Thread nD τ).loc main_arg5)) := by
  show after opsF (V5 m c) (Proc.devRef .tc main_v6) = _
  simp only [opsF]
  after_results_simp
  exact at5_v6 m c

theorem at6_v50 : V6 m c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  show after opsF (V5 m c) (Proc.devRef .tc main_v50) = _
  simp only [opsF]
  after_results_simp
  exact at5_v50 m c

theorem at6_arg4 : V6 m c (Proc.devRef .tc main_arg4) = (m ((c.tc : Thread nD τ).loc main_arg4)) := by
  show after opsF (V5 m c) (Proc.devRef .tc main_arg4) = _
  simp only [opsF]
  after_results_simp
  exact at5_arg4 m c

/-! ### After stretch G (the second aggregation) -/

theorem at7_v78 : V7 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  show after opsG (V6 m c) (Proc.devRef .tc main_v78) = _
  simp only [opsG]
  read_results
  simp only [at6_v3 m c, at6_v6 m c, at6_v50 m c, at6_v66 m c]
  rfl

theorem at7_arg4 : V7 m c (Proc.devRef .tc main_arg4) = (m ((c.tc : Thread nD τ).loc main_arg4)) := by
  show after opsG (V6 m c) (Proc.devRef .tc main_arg4) = _
  simp only [opsG]
  after_results_simp
  exact at6_arg4 m c

/-! ### After stretch H (bias and the log-softmax) -/

theorem at8_v82 : V8 m c (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsH (V7 m c) (Proc.devRef .tc main_v82) = _
  simp only [opsH]
  read_results
  simp only [at7_v78 m c, at7_arg4 m c]
  rfl

/-! ## The run -/

/-- The result buffer ends at the last stage of the arguments. -/
theorem result : after ops (launchContents m c) (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [fold_eq]; exact at8_v82 m c

set_option maxHeartbeats 48000000 in
/-- Every weakly fair execution of the reference terminates, nothing faulting, with the result at the last stage of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.RefRun

end
-- ==== Proof.KernelRun.lean ====
/-
  The kernel program's run with its result named.

  The program is eight segments in a row: three stretches of host operations, the linear stage's region, a stretch, the
  hidden stage's region, a stretch, the output stage's region. The contents of every buffer at each boundary between
  segments are a fold through the program from the launch memory (the generated `W0 … W8`), and every weakly fair
  execution ends with each unscoped buffer at the last fold `W8`. The generated frame theorem keeps of that only the
  argument arrays; here the same launch is read once more keeping also the result buffer: it ends at `W8` of itself.
-/
import proofs.«163840_j22789096472662_2_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.Spec.lean ====
/-
  The graph-convolution network's three dense stages, row by row, on the extended reals.

  Every dense stage of the network acts on one row of its input at a time:
    • the linear stage sends row r of x to row r of x·w:  (x·w)(r, q) = Σ_k x(r, k) · w(k, q);
    • the hidden stage adds the bias row, clips at zero and multiplies by the second weight matrix:
      Σ_k max(a(r, k) + b(0, k), 0) · w(k, q);
    • the output stage adds the bias row and takes the logarithm of the softmax along the row, shifted by the row's
      maximum m_r = max_k z(r, k):  (z(r, q) − m_r) − log Σ_k exp(z(r, k) − m_r),  z(r, k) = a(r, k) + b(0, k).
  They are stated for any number of rows, so that the same function describes a block of rows and the whole array;
  a function of a row index and a column index becomes an array by `ofRows`.
-/
import Idealize.ShloMosaic.PureOps.Ideal
import Idealize.ShloMosaic.Lib.ValueIdx

noncomputable section

namespace Cert.Gcn

open Idealize.ShloMosaic Idealize.ShloMosaic.ValueIdx
open scoped BigOperators

/-- An `a × b` array of extended reals. -/
abbrev Arr (a b : Nat) := (⟨2, ![a, b]⟩ : Shape).Idx → EReal

/-- The array whose entry `(r, q)` is `f r q`. -/
def ofRows {n C : Nat} (f : Fin n → Fin C → EReal) : Arr n C := fun i => f (i 0) (i 1)

theorem ofRows_apply {n C : Nat} (f : Fin n → Fin C → EReal) (r : Fin n) (q : Fin C) : ofRows f (ix2 r q) = f r q := rfl

/-- Two arrays given row by row are equal when the row functions are. -/
theorem ofRows_congr {n C : Nat} {f g : Fin n → Fin C → EReal} (h : ∀ r q, f r q = g r q) : ofRows f = ofRows g :=
  funext fun i => h (i 0) (i 1)

/-- Entry `(r, q)` of the product `x · w`. -/
def lin {n K N : Nat} (x : Arr n K) (w : Arr K N) (r : Fin n) (q : Fin N) : EReal :=
  ∑ k : Fin K, x (ix2 r k) * w (ix2 k q)

/-- Entry `(r, q)` of `max(a + b, 0) · w`, the bias `b` a single row added to every row of `a`. -/
def hid {n K N : Nat} (a : Arr n K) (b : Arr 1 K) (w : Arr K N) (r : Fin n) (q : Fin N) : EReal :=
  ∑ k : Fin K, max (a (ix2 r k) + b (ix2 (0 : Fin 1) k)) 0 * w (ix2 k q)

/-- Row `r` of `a` with the bias row added. -/
def rowz {n C : Nat} (a : Arr n C) (b : Arr 1 C) (r : Fin n) (k : Fin C) : EReal :=
  a (ix2 r k) + b (ix2 (0 : Fin 1) k)

/-- The maximum of that row (the maximum of no entries is `−∞`). -/
def rowmax {n C : Nat} (a : Arr n C) (b : Arr 1 C) (r : Fin n) : EReal :=
  (Finset.univ : Finset (Fin C)).fold max ⊥ (rowz a b r)

/-- Entry `(r, q)` of the log-softmax of the rows of `a + b`, each row shifted by its maximum. -/
def lsm {n C : Nat} (a : Arr n C) (b : Arr 1 C) (r : Fin n) (q : Fin C) : EReal :=
  (rowz a b r q - rowmax a b r) - Ideal.log (∑ k : Fin C, Ideal.exp (rowz a b r k - rowmax a b r))

/-- The stages read one row: if row `p` of a block is row `r` of an array, the stage's row `p` on the block is its
    row `r` on the array. -/
theorem lin_row {n n' K N : Nat} (x : Arr n K) (x' : Arr n' K) (w : Arr K N) (p : Fin n) (r : Fin n')
    (h : ∀ k, x (ix2 p k) = x' (ix2 r k)) (q : Fin N) : lin x w p q = lin x' w r q := by
  unfold lin; exact Finset.sum_congr rfl fun k _ => by rw [h k]

theorem hid_row {n n' K N : Nat} (a : Arr n K) (a' : Arr n' K) (b : Arr 1 K) (w : Arr K N) (p : Fin n) (r : Fin n')
    (h : ∀ k, a (ix2 p k) = a' (ix2 r k)) (q : Fin N) : hid a b w p q = hid a' b w r q := by
  unfold hid; exact Finset.sum_congr rfl fun k _ => by rw [h k]

theorem lsm_row {n n' C : Nat} (a : Arr n C) (a' : Arr n' C) (b : Arr 1 C) (p : Fin n) (r : Fin n')
    (h : ∀ k, a (ix2 p k) = a' (ix2 r k)) (q : Fin C) : lsm a b p q = lsm a' b r q := by
  have hz : rowz a b p = rowz a' b r := funext fun k => by unfold rowz; rw [h k]
  unfold lsm rowmax; rw [hz]

end Cert.Gcn

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowMax.lean ====
/-
  The maximum along the rows of an [a, b] array, started from −∞, read at a row.

  A kernel takes it as a lane reduction whose accumulator is the word of −∞, the host as a one-operand reduce whose
  initial value is the scalar constant −∞. On the extended reals both are, at row p, the maximum over k of the entries
  (p, k), with −∞ (the bottom element) the maximum of no entries; the order in which the entries are met does not
  matter since the maximum is commutative and associative. Stated for any extents a and b.
-/
import Idealize.ShloMosaic.Lib.Pipeline.Value
import Idealize.ShloMosaic.Lib.ValueIdx
import Idealize.ShloMosaic.PureOps.Ideal.Laws
import proofs.«163840_j22789096472662_2_alg».proof.Proof.LibKeepdims

noncomputable section

namespace RowMax

open Idealize.ShloMosaic Idealize.ShloMosaic.ValueIdx

/-- The word of −∞ denotes the bottom of the extended reals. -/
theorem ofBits_neg_inf : Ideal.ofBits .f32 0xFF800000#32 = (⊥ : EReal) := by simp [Ideal.ofBits, Ideal.ieee]

/-- Reading the source along row p: lane k put back over p is the entry (p, k). -/
theorem comp_lift {a b : ℕ} (src : (⟨2, ![a, b]⟩ : Shape).Idx → EReal)
    (h : (⟨2, ![a, b]⟩ : Shape).Reduces [1] (⟨1, ![a]⟩ : Shape)) (p : Fin a) :
    (src ∘ h.lift (ix1 p)) = fun k : Fin b => src (ix2 p k) :=
  funext fun k => congrArg src (Keepdims.lift_lane h p k)

/-- A kernel's lane maximum from −∞, at row p. -/
theorem laneMax_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [comp_lift src h p]
  show Finset.fold max (Ideal.ofBits .f32 0xFF800000#32) _ _ = _
  rw [ofBits_neg_inf]
  rfl

/-- The host's maximum-reduce along the rows from the scalar −∞, at row p. -/
theorem hostMax_apply {a b : ℕ} (src : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce (FloatOps.maximumf (F := Ideal) (φ := .f32)) src (constant (F := Ideal) ⟨0, ![]⟩ .f32 0xFF800000#32) h' hu (ix1 p)
      = (Finset.univ : Finset (Fin b)).fold max ⊥ (fun k => src (ix2 p k)) := by
  rw [Host.reduce_eq_fold_single (FloatOps.maximumf (F := Ideal) (φ := .f32)) src _ h' h hu (ix1 p), comp_lift src h p]
  show Finset.fold max (Ideal.ofBits .f32 0xFF800000#32) _ _ = _
  rw [ofBits_neg_inf]
  rfl

end RowMax

end
-- ==== Proof.RefStages.lean ====
/-
  The reference's three dense stages are the row functions of the specification.

  Read at an entry (r, q), on the extended reals:
    • the reference's first matrix product is  Σ_k x(r, k) · w1(k, q);
    • its second one, of the rectified first layer, is  Σ_k max(h(r, k) + b1(k), 0) · w2(k, q), where h is the first
      layer's aggregated array (left unopened here) and the bias is spread over the rows;
    • its log-softmax of the second layer's aggregated array g plus the bias is
      (z(r, q) − m_r) − log Σ_k exp(z(r, k) − m_r), z = g + b2, m_r the row's maximum; the reference takes the maximum
      once more against −∞, which changes nothing.
  The bias enters as a one-row array b with b(0, k) the k-th bias entry: the kernels are handed the bias in that form.
-/
import proofs.«163840_j22789096472662_2_alg».proof.Proof.RefReadP
import proofs.«163840_j22789096472662_2_alg».proof.Proof.Spec
import proofs.«163840_j22789096472662_2_alg».proof.Proof.LibRowMax

noncomputable section

namespace Cert.Gcn.Ref

open Idealize.ShloMosaic Idealize.ShloMosaic.ValueIdx
open Cert.ReferenceIdeal Cert.ReferenceIdeal.ReadP Cert.Gcn
open scoped BigOperators

variable (x0 : (⟨S200000x16, .f32⟩ : BufTy).Contents (Elt Ideal)) (x1 : (⟨S16x16, .f32⟩ : BufTy).Contents (Elt Ideal))
  (x2 : (⟨S16, .f32⟩ : BufTy).Contents (Elt Ideal)) (x3 : (⟨S16x2, .f32⟩ : BufTy).Contents (Elt Ideal))
  (x4 : (⟨S2, .f32⟩ : BufTy).Contents (Elt Ideal)) (x5 : (⟨S2x3200000, .i32⟩ : BufTy).Contents (Elt Ideal))

/-- The first matrix product is the linear stage. -/
theorem lin_stage : val_main_v17 (F := Ideal) x0 x1 = ofRows (lin x0 x1) := by
  funext i
  obtain ⟨r, q, rfl⟩ : ∃ (r : Fin 200000) (q : Fin 16), i = ix2 r q := ⟨i 0, i 1, eq_ix2 i⟩
  rw [val_main_v17_apply]
  show _ = lin x0 x1 r q
  unfold lin
  refine Finset.sum_congr rfl fun k _ => ?_
  have hl : lidx_main_v17 (ix2 r q) k = ix2 r k :=
    funext fun a => Fin.ext (by match a with | ⟨0, _⟩ => rfl | ⟨1, _⟩ => rfl)
  have hr : ridx_main_v17 (ix2 r q) k = ix2 k q :=
    funext fun a => Fin.ext (by match a with | ⟨0, _⟩ => rfl | ⟨1, _⟩ => rfl)
  rw [hl, hr]

/-- The second matrix product, of the rectified first layer plus bias, is the hidden stage of the first layer's
    aggregated array. -/
theorem hid_stage (b : Arr 1 16) (hb : ∀ k : Fin 16, b (ix2 (0 : Fin 1) k) = x2 (ix1 k)) :
    val_main_v50 (F := Ideal) x0 x1 x2 x3 x5 = ofRows (hid (val_main_v45 (F := Ideal) x0 x1 x5) b x3) := by
  funext i
  obtain ⟨r, q, rfl⟩ : ∃ (r : Fin 200000) (q : Fin 2), i = ix2 r q := ⟨i 0, i 1, eq_ix2 i⟩
  rw [val_main_v50_apply]
  show _ = hid (val_main_v45 (F := Ideal) x0 x1 x5) b x3 r q
  unfold hid
  refine Finset.sum_congr rfl fun k _ => ?_
  have hl : lidx_main_v50 (ix2 r q) k = ix2 r k :=
    funext fun a => Fin.ext (by match a with | ⟨0, _⟩ => rfl | ⟨1, _⟩ => rfl)
  have hr : ridx_main_v50 (ix2 r q) k = ix2 k q :=
    funext fun a => Fin.ext (by match a with | ⟨0, _⟩ => rfl | ⟨1, _⟩ => rfl)
  have hi : idx_main_v46 (idx_main_v47 (ix2 r k)) = ix1 k :=
    funext fun a => Fin.ext (by match a with | ⟨0, _⟩ => rfl)
  rw [hl, hr, val_main_v49_apply, val_main_v48_apply, val_main_v47_apply, val_main_v46_apply, val_main_call1_v0_apply,
    val_main_call1_cst_apply, hi, hb k]
  show max (_ + _) (Ideal.ofBits .f32 0x00000000#32) * _ = _
  rw [Ideal.ofBits_zero_f32]

/-- The second layer's aggregated array plus bias, at (r, k). -/
theorem z_apply (b : Arr 1 2) (hb : ∀ k : Fin 2, b (ix2 (0 : Fin 1) k) = x4 (ix1 k)) (r : Fin 200000) (k : Fin 2) :
    val_main_v81 (F := Ideal) x0 x1 x2 x3 x4 x5 (ix2 r k) = rowz (val_main_v78 (F := Ideal) x0 x1 x2 x3 x5) b r k := by
  have hi : idx_main_v79 (idx_main_v80 (ix2 r k)) = ix1 k :=
    funext fun a => Fin.ext (by match a with | ⟨0, _⟩ => rfl)
  rw [val_main_v81_apply, val_main_v80_apply, val_main_v79_apply, hi]
  unfold rowz
  rw [hb k]
  rfl

/-- The row maximum the reference subtracts, at row r. -/
theorem max_apply (b : Arr 1 2) (hb : ∀ k : Fin 2, b (ix2 (0 : Fin 1) k) = x4 (ix1 k)) (r : Fin 200000) :
    val_main_call2_v2 (F := Ideal) x0 x1 x2 x3 x4 x5 (ix1 r) = rowmax (val_main_v78 (F := Ideal) x0 x1 x2 x3 x5) b r := by
  rw [val_main_call2_v2_apply, val_main_call2_v1_apply, val_main_call2_cst_0_apply]
  unfold val_main_call2_v0 val_main_call2_cst
  rw [RowMax.hostMax_apply _ _ (by decide) _ r]
  show max (Ideal.ofBits .f32 0xFF800000#32) _ = _
  rw [RowMax.ofBits_neg_inf, max_eq_right bot_le]
  unfold rowmax
  exact congrArg (fun f : Fin 2 → EReal => (Finset.univ : Finset (Fin 2)).fold max ⊥ f) (funext fun k => z_apply x0 x1 x2 x3 x4 x5 b hb r k)

/-- The shifted row entry the reference exponentiates and returns, at (r, k). -/
theorem shifted_apply (b : Arr 1 2) (hb : ∀ k : Fin 2, b (ix2 (0 : Fin 1) k) = x4 (ix1 k)) (r : Fin 200000) (k : Fin 2) :
    val_main_call2_v5 (F := Ideal) x0 x1 x2 x3 x4 x5 (ix2 r k)
      = rowz (val_main_v78 (F := Ideal) x0 x1 x2 x3 x5) b r k - rowmax (val_main_v78 (F := Ideal) x0 x1 x2 x3 x5) b r := by
  have hi : idx_main_call2_v3 (idx_main_call2_v4 (ix2 r k)) = ix1 r :=
    funext fun a => Fin.ext (by match a with | ⟨0, _⟩ => rfl)
  rw [val_main_call2_v5_apply, val_main_call2_v4_apply, val_main_call2_v3_apply, hi, z_apply x0 x1 x2 x3 x4 x5 b hb,
    max_apply x0 x1 x2 x3 x4 x5 b hb]
  rfl

/-- The logarithm of the row's sum of exponentials the reference subtracts, at (r, q). -/
theorem logsum_apply (b : Arr 1 2) (hb : ∀ k : Fin 2, b (ix2 (0 : Fin 1) k) = x4 (ix1 k)) (r : Fin 200000) (q : Fin 2) :
    val_main_call2_v10 (F := Ideal) x0 x1 x2 x3 x4 x5 (ix2 r q)
      = Ideal.log (∑ k : Fin 2, Ideal.exp (rowz (val_main_v78 (F := Ideal) x0 x1 x2 x3 x5) b r k
          - rowmax (val_main_v78 (F := Ideal) x0 x1 x2 x3 x5) b r)) := by
  have hi : idx_main_call2_v8 (idx_main_call2_v10 (ix2 r q)) = ix1 r :=
    funext fun a => Fin.ext (by match a with | ⟨0, _⟩ => rfl)
  rw [val_main_call2_v10_apply]
  rw [val_main_call2_v9_apply]
  rw [val_main_call2_v8_apply]
  rw [hi]
  rw [val_main_call2_v7_apply, val_main_call2_cst_1_apply, Ideal.hostUnary_log_def]
  rw [show FloatOps.ofBits (F := Ideal) .f32 0x00000000#32 = (0 : EReal) from Ideal.ofBits_zero_f32, zero_add]
  refine congrArg Ideal.log (Finset.sum_congr rfl fun k _ => ?_)
  have hk : idx_main_call2_v7 (ix1 r) k = ix2 r k :=
    funext fun a => Fin.ext (by match a with | ⟨0, _⟩ => rfl | ⟨1, _⟩ => rfl)
  rw [hk, val_main_call2_v6_apply, shifted_apply x0 x1 x2 x3 x4 x5 b hb]
  exact Ideal.hostUnary_exp_def _

/-- The reference's log-softmax is the output stage of the second layer's aggregated array. -/
theorem lsm_stage (b : Arr 1 2) (hb : ∀ k : Fin 2, b (ix2 (0 : Fin 1) k) = x4 (ix1 k)) :
    val_main_v82 (F := Ideal) x0 x1 x2 x3 x4 x5 = ofRows (lsm (val_main_v78 (F := Ideal) x0 x1 x2 x3 x5) b) := by
  funext i
  obtain ⟨r, q, rfl⟩ : ∃ (r : Fin 200000) (q : Fin 2), i = ix2 r q := ⟨i 0, i 1, eq_ix2 i⟩
  rw [val_main_v82_apply, shifted_apply x0 x1 x2 x3 x4 x5 b hb, logsum_apply x0 x1 x2 x3 x4 x5 b hb, Ideal.subf_def, ofRows_apply]
  rfl

end Cert.Gcn.Ref

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.Payload.lean ====
/-
  What each of the three kernels stores, read at an entry.

  Each kernel loads a block of rows (and the small arrays it needs whole), computes one value per entry and stores the
  block. On the extended reals a change of float format is the identity, a matrix product into the zero accumulator is
  the plain sum over the contracted axis, and a reduction along the lanes is the sum, or the maximum starting from −∞,
  over the row. So at entry (p, q) of the block:
    • the linear kernel stores  Σ_k x(p, k) · w(k, q);
    • the hidden kernel stores  Σ_k max(a(p, k) + b(0, k), 0) · w(k, q);
    • the output kernel stores  (z(p, q) − m_p) − log Σ_k exp(z(p, k) − m_p),  z = a + b,  m_p = max_k z(p, k).
  These are the row functions `lin`, `hid` and `lsm` of the specification, at the block.
-/
import proofs.«163840_j22789096472662_2_alg».proof.Proof.Gen.KernelIdeal.Skeleton
import proofs.«163840_j22789096472662_2_alg».proof.Proof.Spec
import proofs.«163840_j22789096472662_2_alg».proof.Proof.LibPlainDot
import proofs.«163840_j22789096472662_2_alg».proof.Proof.LibKeepdims
import proofs.«163840_j22789096472662_2_alg».proof.Proof.LibRowMax
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx
open scoped BigOperators

section Kernels

open Cert.KernelIdeal Cert.KernelIdeal.Gen

/-- The linear kernel's stored block at (p, q). -/
theorem pay_lin (x0 : Vec Ideal S4000x16 .f32) (x1 : Vec Ideal S16x16 .f32) (p : Fin 4000) (q : Fin 16) :
    k0_pay1 (F := Ideal) x0 x1 (ix2 p q) = lin x0 x1 p q := by
  unfold k0_pay1
  simp only [matmul]
  rw [Ideal.matmul_constant_zero_apply]
  exact Cert.PlainDot.contraction_eq (M := 4000) (K := 16) (N := 16) x0 x1 p q

/-- The hidden kernel's stored block at (p, q). -/
theorem pay_hid (x0 : Vec Ideal S4000x16 .f32) (x1 : Vec Ideal S1x16 .f32) (x2 : Vec Ideal S16x2 .f32) (p : Fin 4000) (q : Fin 2) :
    k1_pay1 (F := Ideal) x0 x1 x2 (ix2 p q) = hid x0 x1 x2 p q := by
  unfold k1_pay1
  simp only [matmul]
  rw [Ideal.matmul_constant_zero_apply]
  refine (Cert.PlainDot.contraction_eq (M := 4000) (K := 16) (N := 2) _ x2 p q).trans ?_
  unfold hid
  refine Finset.sum_congr rfl fun k _ => congrArg (· * x2 (ix2 k q)) ?_
  show max (shapeCast S4000x16 x0 shapeCasts_S4000x16_S4000x16 (ix2 p k)
      + broadcastTo S4000x16 (shapeCast S1x16 x1 shapeCasts_S1x16_S1x16) broadcasts_S1x16_S4000x16 (ix2 p k))
      (Ideal.ofBits .f32 0x00000000#32) = _
  rw [shapeCast_self, shapeCast_self, broadcastTo_1b_ab_apply, Ideal.ofBits_zero_f32]

/-- The output kernel's row with the bias added, at (p, k). -/
theorem out_z (x0 : Vec Ideal S4000x2 .f32) (x1 : Vec Ideal S1x2 .f32) (p : Fin 4000) (k : Fin 2) :
    addf (F := Ideal) (φ := .f32) (shapeCast S4000x2 x0 shapeCasts_S4000x2_S4000x2)
      (broadcastTo S4000x2 (shapeCast S1x2 x1 shapeCasts_S1x2_S1x2) broadcasts_S1x2_S4000x2) (ix2 p k) = rowz x0 x1 p k := by
  show shapeCast S4000x2 x0 shapeCasts_S4000x2_S4000x2 (ix2 p k)
      + broadcastTo S4000x2 (shapeCast S1x2 x1 shapeCasts_S1x2_S1x2) broadcasts_S1x2_S4000x2 (ix2 p k) = _
  rw [shapeCast_self, shapeCast_self, broadcastTo_1b_ab_apply]
  rfl

/-- The output kernel's stored block at (p, q). -/
theorem pay_lsm (x0 : Vec Ideal S4000x2 .f32) (x1 : Vec Ideal S1x2 .f32) (p : Fin 4000) (q : Fin 2) :
    k2_pay1 (F := Ideal) x0 x1 (ix2 p q) = lsm x0 x1 p q := by
  unfold k2_pay1
  -- the row with its bias, and the row's maximum kept as a column and spread back
  generalize hz : addf (F := Ideal) (φ := .f32) (shapeCast S4000x2 x0 shapeCasts_S4000x2_S4000x2)
      (broadcastTo S4000x2 (shapeCast S1x2 x1 shapeCasts_S1x2_S1x2) broadcasts_S1x2_S4000x2) = z
  have hzk : ∀ k : Fin 2, z (ix2 p k) = rowz x0 x1 p k := fun k => by rw [← hz]; exact out_z x0 x1 p k
  have hm : ∀ k : Fin 2, broadcastTo S4000x2 (shapeCast S4000x1
        (multiReduction (F := Ideal) .maximumf [1] S4000 z 0xFF800000#32 reduces_S4000x2_S4000 (.inl rfl) rfl) shapeCasts_S4000_S4000x1)
        broadcasts_S4000x1_S4000x2 (ix2 p k) = rowmax x0 x1 p := fun k => by
    rw [Keepdims.broadcastTo_a1_ab_apply, Keepdims.shapeCast_a_a1_apply, RowMax.laneMax_apply]
    unfold rowmax
    exact congrArg (fun f : Fin 2 → EReal => (Finset.univ : Finset (Fin 2)).fold max ⊥ f) (funext hzk)
  show (z (ix2 p q) - _) - _ = _
  unfold lsm
  rw [hm q, hzk q]
  refine congrArg (fun t => (rowz x0 x1 p q - rowmax x0 x1 p) - t) ?_
  rw [Keepdims.broadcastTo_a1_ab_apply]
  show Ideal.log (shapeCast S4000x1 _ shapeCasts_S4000_S4000x1 (ix2 p (0 : Fin 1))) = _
  rw [Keepdims.shapeCast_a_a1_apply, Keepdims.laneSum_apply]
  refine congrArg Ideal.log (Finset.sum_congr rfl fun k _ => ?_)
  show Ideal.exp (z (ix2 p k) - _) = _
  rw [hm k, hzk k]

end Kernels

end Cert.Gcn

end
-- ==== Proof.RegionLinear.lean ====
/-
  The linear stage's result array, from its blocks.

  The grid has 50 points; point t loads rows 4000·t … 4000·t + 3999 of the input (all 16 columns) and the whole weight
  matrix, and writes back rows 4000·t … 4000·t + 3999 of the result. A row of the product depends only on the same row
  of the input, so what point t writes back is block t of the whole product, and the 50 blocks tile the 200000 rows:
  the result array ends holding x · w.
-/
import proofs.«163840_j22789096472662_2_alg».proof.Proof.Gen.KernelIdeal.Frame
import proofs.«163840_j22789096472662_2_alg».proof.Proof.Payload

noncomputable section

namespace Cert.Gcn.Linear

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point t is rows 4000·t … of the input array. -/
theorem rows_apply (c : Dev nD) (t : Fin cfg0.N) (x : S4000x16.Idx) (k : S200000x16.Idx)
    (hk0 : (k 0).val = 4000 * t.val + (x 0).val) (hk1 : (k 1).val = (x 1).val) :
    (iblk0 V c 0 t : Vec Ideal S4000x16 .f32) x = (V c main_arg0 : S200000x16.Idx → Elt Ideal .f32) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 4000 + 1 * (x 0).val = (k 0).val; rw [e0, hk0]; omega
  | ⟨1, _⟩ => show win0_0.index t 1 * 16 + 1 * (x 1).val = (k 1).val; rw [e1, hk1]; omega

/-- The weight window's block is the whole weight matrix, at every point. -/
theorem weights_eq (c : Dev nD) (t : Fin cfg0.N) :
    (iblk0 V c 1 t : Vec Ideal S16x16 .f32) = (V c main_arg1 : S16x16.Idx → Elt Ideal .f32) := by
  obtain ⟨-, -, e2, e3, -, -⟩ := idx_facts t
  funext x
  unfold iblk0
  rw [View.read_apply]
  show V c main_arg1 _ = V c main_arg1 _
  congr 1
  funext a
  apply Fin.ext
  match a with
  | ⟨0, _⟩ => show win0_1.index t 0 * 16 + 1 * (x 0).val = (x 0).val; rw [e2]; omega
  | ⟨1, _⟩ => show win0_1.index t 1 * 16 + 1 * (x 1).val = (x 1).val; rw [e3]; omega

/-- The whole product, as the result array's contents. -/
abbrev product (c : Dev nD) : S200000x16.Idx → Elt Ideal .f32 :=
  ofRows (lin (V c main_arg0 : S200000x16.Idx → Elt Ideal .f32) (V c main_arg1 : S16x16.Idx → Elt Ideal .f32))

/-- What point t writes back is block t of the whole product. -/
theorem flushed_eq (c : Dev nD) (t : Fin cfg0.N) :
    (dat0 V c).flushed 2 t = ((cfg0.win 2).blk t).view.read (Elt Ideal) (product V c) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S4000x16) hz, View.ld_unit_zero (S := S16x16) hz]
  refine funext ?_
  show ∀ y : S4000x16.Idx, k0_pay1 (F := Ideal) (iblk0 V c 0 t) (iblk0 V c 1 t) y
      = product V c (((cfg0.win 2).blk t).view.emb y)
  intro y
  obtain ⟨p, q, rfl⟩ : ∃ (p : Fin 4000) (q : Fin 16), y = ix2 p q := ⟨y 0, y 1, eq_ix2 y⟩
  have hN : t.val < 50 := by have h := t.isLt; have e : cfg0.N = 50 := N_0; omega
  have he : ((cfg0.win 2).blk t).view.emb (ix2 p q) = (ix2 (⟨4000 * t.val + p.val, by have := p.isLt; omega⟩ : Fin 200000) q : S200000x16.Idx) := by
    funext a
    apply Fin.ext
    match a with
    | ⟨0, _⟩ => show win0_2.index t 0 * 4000 + 1 * p.val = 4000 * t.val + p.val; rw [e4]; omega
    | ⟨1, _⟩ => show win0_2.index t 1 * 16 + 1 * q.val = q.val; rw [e5]; omega
  rw [he]
  refine (pay_lin (iblk0 V c 0 t) (iblk0 V c 1 t) p q).trans ?_
  refine (congrArg (fun w => lin (iblk0 V c 0 t : Vec Ideal S4000x16 .f32) w p q) (weights_eq V c t)).trans ?_
  exact lin_row _ _ _ p _ (fun k => rows_apply V c t (ix2 p k) (ix2 _ k) rfl rfl) q

/-- An index of the result array is in point t's block iff its row is one of the block's 4000 rows. -/
theorem mem_blk (t : Fin cfg0.N) (i : S200000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v33).slice (win0_2.rect t)).set ↔ _
  rw [View.set_slice_whole, Rect.mem_set_unit]
  exact Iff.rfl

/-- Every row lies in the block of the point `row / 4000`. -/
theorem cover (i : S200000x16.Idx) : ∃ t : Fin cfg0.N, (cfg0.win 2).flush t = true ∧ i ∈ ((cfg0.win 2).blk t).view.set := by
  have h0 : (i 0).val < 200000 := (i 0).isLt
  have h1 : (i 1).val < 16 := (i 1).isLt
  let t : Fin cfg0.N := ⟨(i 0).val / 4000, by rw [show cfg0.N = 50 from N_0]; omega⟩
  obtain ⟨-, -, -, -, e4, e5⟩ := idx_facts t
  refine ⟨t, flush0_2 t, ?_⟩
  rw [mem_blk]
  have ht : t.val = (i 0).val / 4000 := rfl
  intro a
  match a with
  | ⟨0, _⟩ => show win0_2.index t 0 * 4000 ≤ (i 0).val ∧ (i 0).val < win0_2.index t 0 * 4000 + 4000; rw [e4, ht]; omega
  | ⟨1, _⟩ => show win0_2.index t 1 * 16 ≤ (i 1).val ∧ (i 1).val < win0_2.index t 1 * 16 + 16; rw [e5]; omega

/-- The result array after the region: the whole product of the arrays the region found. -/
theorem final (c : Dev nD) : (dat0 V c).arrAt 2 cfg0.N = product V c :=
  (dat0 V c).arrAt_eq_of_cover 2 (product V c) (fun t _ => flushed_eq V c t) cover

end Cert.Gcn.Linear

end
-- ==== Proof.RegionHidden.lean ====
/-
  The hidden stage's result array, from its blocks.

  Point t of the 50-point grid loads rows 4000·t … 4000·t + 3999 of the aggregated first layer (all 16 columns), the
  bias row and the second weight matrix whole, and writes back rows 4000·t … 4000·t + 3999 of the result (2 columns).
  A result row depends only on the same input row, so point t writes block t of the whole-array stage, and the blocks
  tile the 200000 rows.
-/
import proofs.«163840_j22789096472662_2_alg».proof.Proof.Gen.KernelIdeal.Frame
import proofs.«163840_j22789096472662_2_alg».proof.Proof.Payload

noncomputable section

namespace Cert.Gcn.Hidden

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the bias and the weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input window's block at point t is rows 4000·t … of the aggregated array. -/
theorem rows_apply (c : Dev nD) (t : Fin cfg1.N) (x : S4000x16.Idx) (k : S200000x16.Idx)
    (hk0 : (k 0).val = 4000 * t.val + (x 0).val) (hk1 : (k 1).val = (x 1).val) :
    (iblk1 V c 0 t : Vec Ideal S4000x16 .f32) x = (V c main_v45 : S200000x16.Idx → Elt Ideal .f32) k := by
  obtain ⟨e0, e1, -, -, -, -, -, -⟩ := idx_facts t
  unfold iblk1
  rw [View.read_apply]
  show V c main_v45 _ = V c main_v45 _
  congr 1
  funext a
  apply Fin.ext
  match a with
  | ⟨0, _⟩ => show win1_0.index t 0 * 4000 + 1 * (x 0).val = (k 0).val; rw [e0, hk0]; omega
  | ⟨1, _⟩ => show win1_0.index t 1 * 16 + 1 * (x 1).val = (k 1).val; rw [e1, hk1]; omega

/-- The bias window's block is the whole bias row, at every point. -/
theorem bias_eq (c : Dev nD) (t : Fin cfg1.N) :
    (iblk1 V c 1 t : Vec Ideal S1x16 .f32) = (V c main_v46 : S1x16.Idx → Elt Ideal .f32) := by
  obtain ⟨-, -, e2, e3, -, -, -, -⟩ := idx_facts t
  funext x
  unfold iblk1
  rw [View.read_apply]
  show V c main_v46 _ = V c main_v46 _
  congr 1
  funext a
  apply Fin.ext
  match a with
  | ⟨0, _⟩ => show win1_1.index t 0 * 1 + 1 * (x 0).val = (x 0).val; rw [e2]; omega
  | ⟨1, _⟩ => show win1_1.index t 1 * 16 + 1 * (x 1).val = (x 1).val; rw [e3]; omega

/-- The weight window's block is the whole weight matrix, at every point. -/
theorem weights_eq (c : Dev nD) (t : Fin cfg1.N) :
    (iblk1 V c 2 t : Vec Ideal S16x2 .f32) = (V c main_arg3 : S16x2.Idx → Elt Ideal .f32) := by
  obtain ⟨-, -, -, -, e4, e5, -, -⟩ := idx_facts t
  funext x
  unfold iblk1
  rw [View.read_apply]
  show V c main_arg3 _ = V c main_arg3 _
  congr 1
  funext a
  apply Fin.ext
  match a with
  | ⟨0, _⟩ => show win1_2.index t 0 * 16 + 1 * (x 0).val = (x 0).val; rw [e4]; omega
  | ⟨1, _⟩ => show win1_2.index t 1 * 2 + 1 * (x 1).val = (x 1).val; rw [e5]; omega

/-- The whole-array stage, as the result array's contents. -/
abbrev product (c : Dev nD) : S200000x2.Idx → Elt Ideal .f32 :=
  ofRows (hid (V c main_v45 : S200000x16.Idx → Elt Ideal .f32) (V c main_v46 : S1x16.Idx → Elt Ideal .f32)
    (V c main_arg3 : S16x2.Idx → Elt Ideal .f32))

/-- What point t writes back is block t of the whole-array stage. -/
theorem flushed_eq (c : Dev nD) (t : Fin cfg1.N) :
    (dat1 V c).flushed 3 t = ((cfg1.win 3).blk t).view.read (Elt Ideal) (product V c) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S4000x16) hz, View.ld_unit_zero (S := S1x16) hz, View.ld_unit_zero (S := S16x2) hz]
  refine funext ?_
  show ∀ y : S4000x2.Idx, k1_pay1 (F := Ideal) (iblk1 V c 0 t) (iblk1 V c 1 t) (iblk1 V c 2 t) y
      = product V c (((cfg1.win 3).blk t).view.emb y)
  intro y
  obtain ⟨p, q, rfl⟩ : ∃ (p : Fin 4000) (q : Fin 2), y = ix2 p q := ⟨y 0, y 1, eq_ix2 y⟩
  have hN : t.val < 50 := by have h := t.isLt; have e : cfg1.N = 50 := N_1; omega
  have he : ((cfg1.win 3).blk t).view.emb (ix2 p q) = (ix2 (⟨4000 * t.val + p.val, by have := p.isLt; omega⟩ : Fin 200000) q : S200000x2.Idx) := by
    funext a
    apply Fin.ext
    match a with
    | ⟨0, _⟩ => show win1_3.index t 0 * 4000 + 1 * p.val = 4000 * t.val + p.val; rw [e6]; omega
    | ⟨1, _⟩ => show win1_3.index t 1 * 2 + 1 * q.val = q.val; rw [e7]; omega
  rw [he]
  refine (pay_hid (iblk1 V c 0 t) (iblk1 V c 1 t) (iblk1 V c 2 t) p q).trans ?_
  refine (congrArg (fun b => hid (iblk1 V c 0 t : Vec Ideal S4000x16 .f32) b (iblk1 V c 2 t : Vec Ideal S16x2 .f32) p q) (bias_eq V c t)).trans ?_
  refine (congrArg (fun w => hid (iblk1 V c 0 t : Vec Ideal S4000x16 .f32) (V c main_v46 : S1x16.Idx → Elt Ideal .f32) w p q) (weights_eq V c t)).trans ?_
  exact hid_row _ _ _ _ p _ (fun k => rows_apply V c t (ix2 p k) (ix2 _ k) rfl rfl) q

/-- An index of the result array is in point t's block iff its row is one of the block's 4000 rows. -/
theorem mem_blk (t : Fin cfg1.N) (i : S200000x2.Idx) :
    i ∈ ((cfg1.win 3).blk t).view.set ↔ ∀ a : Fin 2, win1_3.index t a * S4000x2.size a ≤ (i a).val ∧ (i a).val < win1_3.index t a * S4000x2.size a + S4000x2.size a := by
  show i ∈ ((View.whole main_v47).slice (win1_3.rect t)).set ↔ _
  rw [View.set_slice_whole, Rect.mem_set_unit]
  exact Iff.rfl

/-- Every row lies in the block of the point `row / 4000`. -/
theorem cover (i : S200000x2.Idx) : ∃ t : Fin cfg1.N, (cfg1.win 3).flush t = true ∧ i ∈ ((cfg1.win 3).blk t).view.set := by
  have h0 : (i 0).val < 200000 := (i 0).isLt
  have h1 : (i 1).val < 2 := (i 1).isLt
  let t : Fin cfg1.N := ⟨(i 0).val / 4000, by rw [show cfg1.N = 50 from N_1]; omega⟩
  obtain ⟨-, -, -, -, -, -, e6, e7⟩ := idx_facts t
  refine ⟨t, flush1_3 t, ?_⟩
  rw [mem_blk]
  have ht : t.val = (i 0).val / 4000 := rfl
  intro a
  match a with
  | ⟨0, _⟩ => show win1_3.index t 0 * 4000 ≤ (i 0).val ∧ (i 0).val < win1_3.index t 0 * 4000 + 4000; rw [e6, ht]; omega
  | ⟨1, _⟩ => show win1_3.index t 1 * 2 ≤ (i 1).val ∧ (i 1).val < win1_3.index t 1 * 2 + 2; rw [e7]; omega

/-- The result array after the region: the whole-array stage of the arrays the region found. -/
theorem final (c : Dev nD) : (dat1 V c).arrAt 3 cfg1.N = product V c :=
  (dat1 V c).arrAt_eq_of_cover 3 (product V c) (fun t _ => flushed_eq V c t) cover

end Cert.Gcn.Hidden

end
-- ==== Proof.RegionOutput.lean ====
/-
  The output stage's result array, from its blocks.

  Point t of the 50-point grid loads rows 4000·t … 4000·t + 3999 of the aggregated second layer (2 columns) and the bias
  row whole, and writes back the same rows of the result. The log-softmax of a row depends only on that row, so point
  t writes block t of the whole-array stage, and the blocks tile the 200000 rows.
-/
import proofs.«163840_j22789096472662_2_alg».proof.Proof.Gen.KernelIdeal.Frame
import proofs.«163840_j22789096472662_2_alg».proof.Proof.Payload

noncomputable section

namespace Cert.Gcn.Output

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the bias at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point t is rows 4000·t … of the aggregated array. -/
theorem rows_apply (c : Dev nD) (t : Fin cfg2.N) (x : S4000x2.Idx) (k : S200000x2.Idx)
    (hk0 : (k 0).val = 4000 * t.val + (x 0).val) (hk1 : (k 1).val = (x 1).val) :
    (iblk2 V c 0 t : Vec Ideal S4000x2 .f32) x = (V c main_v59 : S200000x2.Idx → Elt Ideal .f32) k := by
  obtain ⟨e0, e1, -, -, -, -⟩ := idx_facts t
  unfold iblk2
  rw [View.read_apply]
  show V c main_v59 _ = V c main_v59 _
  congr 1
  funext a
  apply Fin.ext
  match a with
  | ⟨0, _⟩ => show win2_0.index t 0 * 4000 + 1 * (x 0).val = (k 0).val; rw [e0, hk0]; omega
  | ⟨1, _⟩ => show win2_0.index t 1 * 2 + 1 * (x 1).val = (k 1).val; rw [e1, hk1]; omega

/-- The bias window's block is the whole bias row, at every point. -/
theorem bias_eq (c : Dev nD) (t : Fin cfg2.N) :
    (iblk2 V c 1 t : Vec Ideal S1x2 .f32) = (V c main_v60 : S1x2.Idx → Elt Ideal .f32) := by
  obtain ⟨-, -, e2, e3, -, -⟩ := idx_facts t
  funext x
  unfold iblk2
  rw [View.read_apply]
  show V c main_v60 _ = V c main_v60 _
  congr 1
  funext a
  apply Fin.ext
  match a with
  | ⟨0, _⟩ => show win2_1.index t 0 * 1 + 1 * (x 0).val = (x 0).val; rw [e2]; omega
  | ⟨1, _⟩ => show win2_1.index t 1 * 2 + 1 * (x 1).val = (x 1).val; rw [e3]; omega

/-- The whole-array stage, as the result array's contents. -/
abbrev product (c : Dev nD) : S200000x2.Idx → Elt Ideal .f32 :=
  ofRows (lsm (V c main_v59 : S200000x2.Idx → Elt Ideal .f32) (V c main_v60 : S1x2.Idx → Elt Ideal .f32))

/-- What point t writes back is block t of the whole-array stage. -/
theorem flushed_eq (c : Dev nD) (t : Fin cfg2.N) :
    (dat2 V c).flushed 2 t = ((cfg2.win 2).blk t).view.read (Elt Ideal) (product V c) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S4000x2) hz, View.ld_unit_zero (S := S1x2) hz]
  refine funext ?_
  show ∀ y : S4000x2.Idx, k2_pay1 (F := Ideal) (iblk2 V c 0 t) (iblk2 V c 1 t) y
      = product V c (((cfg2.win 2).blk t).view.emb y)
  intro y
  obtain ⟨p, q, rfl⟩ : ∃ (p : Fin 4000) (q : Fin 2), y = ix2 p q := ⟨y 0, y 1, eq_ix2 y⟩
  have hN : t.val < 50 := by have h := t.isLt; have e : cfg2.N = 50 := N_2; omega
  have he : ((cfg2.win 2).blk t).view.emb (ix2 p q) = (ix2 (⟨4000 * t.val + p.val, by have := p.isLt; omega⟩ : Fin 200000) q : S200000x2.Idx) := by
    funext a
    apply Fin.ext
    match a with
    | ⟨0, _⟩ => show win2_2.index t 0 * 4000 + 1 * p.val = 4000 * t.val + p.val; rw [e4]; omega
    | ⟨1, _⟩ => show win2_2.index t 1 * 2 + 1 * q.val = q.val; rw [e5]; omega
  rw [he]
  refine (pay_lsm (iblk2 V c 0 t) (iblk2 V c 1 t) p q).trans ?_
  refine (congrArg (fun b => lsm (iblk2 V c 0 t : Vec Ideal S4000x2 .f32) b p q) (bias_eq V c t)).trans ?_
  exact lsm_row _ _ _ p _ (fun k => rows_apply V c t (ix2 p k) (ix2 _ k) rfl rfl) q

/-- An index of the result array is in point t's block iff its row is one of the block's 4000 rows. -/
theorem mem_blk (t : Fin cfg2.N) (i : S200000x2.Idx) :
    i ∈ ((cfg2.win 2).blk t).view.set ↔ ∀ a : Fin 2, win2_2.index t a * S4000x2.size a ≤ (i a).val ∧ (i a).val < win2_2.index t a * S4000x2.size a + S4000x2.size a := by
  show i ∈ ((View.whole main_v61).slice (win2_2.rect t)).set ↔ _
  rw [View.set_slice_whole, Rect.mem_set_unit]
  exact Iff.rfl

/-- Every row lies in the block of the point `row / 4000`. -/
theorem cover (i : S200000x2.Idx) : ∃ t : Fin cfg2.N, (cfg2.win 2).flush t = true ∧ i ∈ ((cfg2.win 2).blk t).view.set := by
  have h0 : (i 0).val < 200000 := (i 0).isLt
  have h1 : (i 1).val < 2 := (i 1).isLt
  let t : Fin cfg2.N := ⟨(i 0).val / 4000, by rw [show cfg2.N = 50 from N_2]; omega⟩
  obtain ⟨-, -, -, -, e4, e5⟩ := idx_facts t
  refine ⟨t, flush2_2 t, ?_⟩
  rw [mem_blk]
  have ht : t.val = (i 0).val / 4000 := rfl
  intro a
  match a with
  | ⟨0, _⟩ => show win2_2.index t 0 * 4000 ≤ (i 0).val ∧ (i 0).val < win2_2.index t 0 * 4000 + 4000; rw [e4, ht]; omega
  | ⟨1, _⟩ => show win2_2.index t 1 * 2 ≤ (i 1).val ∧ (i 1).val < win2_2.index t 1 * 2 + 2; rw [e5]; omega

/-- The result array after the region: the whole-array stage of the arrays the region found. -/
theorem final (c : Dev nD) : (dat2 V c).arrAt 2 cfg2.N = product V c :=
  (dat2 V c).arrAt_eq_of_cover 2 (product V c) (fun t _ => flushed_eq V c t) cover

end Cert.Gcn.Output

end
-- ==== Proof.KernelChain.lean ====
/-
  The kernel program holds the reference's values, buffer by buffer.

  Walking the kernel program from the launch memory: the host operations before the first region are the reference's
  own (edge lists with the self-loops appended, the degree by a scatter-add of ones, its inverse square root where
  positive, the per-edge normalisation), so the buffers they write hold the reference's values of the same stages; the
  linear stage's region leaves the reference's first matrix product in its result array; the next stretch gathers,
  scales and scatter-adds it exactly as the reference does; the hidden stage's region leaves the reference's second
  matrix product (of the rectified first layer plus bias); the stretch after it aggregates again (the reference
  recomputes the normalisation there: the same operations of the same edge list, so the same array); and the output
  stage's region leaves the reference's log-softmax. A buffer no operation of a stretch writes, and no array of a
  region, keeps its contents across it.
-/
import proofs.«163840_j22789096472662_2_alg».proof.Proof.Gen.KernelIdeal.Frame
import proofs.«163840_j22789096472662_2_alg».proof.Proof.RefReadP
import proofs.«163840_j22789096472662_2_alg».proof.Proof.RefStages
import proofs.«163840_j22789096472662_2_alg».proof.Proof.RegionLinear
import proofs.«163840_j22789096472662_2_alg».proof.Proof.RegionHidden
import proofs.«163840_j22789096472662_2_alg».proof.Proof.RegionOutput
import proofs.«163840_j22789096472662_2_alg».proof.Proof.LibHostRead
import Idealize.ShloMosaic.Lib.StableHlo.Run
import Idealize.ShloMosaic.Lib.ValueLayout

set_option maxRecDepth 16384

noncomputable section

namespace Cert.Gcn.Chain

open Idealize.ShloMosaic Idealize.ShloMosaic.TcCoe Idealize.ShloMosaic.ValueIdx Idealize.SL.Sem
open Idealize.ShloMosaic.StableHlo
open Cert.KernelIdeal Cert.KernelIdeal.Gen Cert.Gcn Cert.HostRead

variable (m : (ℓ : Loc nD τ sig) → Buf (Elt Ideal) ℓ) (ρ : Dev nD → PrngReg)

/-! ## Before the first region -/

/-- The source node of every edge, self-loops appended. -/
theorem src_at3 (c : Dev nD) : W3 m ρ c (Proc.devRef .tc main_v3) = Cert.ReferenceIdeal.ReadP.val_main_v3 (F := Ideal) (m ((c : Thread nD τ).loc main_arg5)) := by
  show StableHlo.after hostOps0_2 (StableHlo.after hostOps0_1 (StableHlo.after hostOps0 (W0 m ρ c))) (Proc.devRef .tc main_v3) = _
  simp only [hostOps0, hostOps0_1, hostOps0_2]
  read_results
  rfl

/-- The destination node of every edge, self-loops appended. -/
theorem dst_at3 (c : Dev nD) : W3 m ρ c (Proc.devRef .tc main_v6) = Cert.ReferenceIdeal.ReadP.val_main_v6 (F := Ideal) (m ((c : Thread nD τ).loc main_arg5)) := by
  show StableHlo.after hostOps0_2 (StableHlo.after hostOps0_1 (StableHlo.after hostOps0 (W0 m ρ c))) (Proc.devRef .tc main_v6) = _
  simp only [hostOps0, hostOps0_1, hostOps0_2]
  read_results
  rfl

/-- The source nodes, after the first stretch. -/
theorem src_at1 (c : Dev nD) : W1 m ρ c (Proc.devRef .tc main_v3) = Cert.ReferenceIdeal.ReadP.val_main_v3 (F := Ideal) (m ((c : Thread nD τ).loc main_arg5)) := by
  show StableHlo.after hostOps0 (W0 m ρ c) (Proc.devRef .tc main_v3) = _
  simp only [hostOps0]
  read_results
  rfl

/-- The destination nodes, after the first stretch. -/
theorem dst_at1 (c : Dev nD) : W1 m ρ c (Proc.devRef .tc main_v6) = Cert.ReferenceIdeal.ReadP.val_main_v6 (F := Ideal) (m ((c : Thread nD τ).loc main_arg5)) := by
  show StableHlo.after hostOps0 (W0 m ρ c) (Proc.devRef .tc main_v6) = _
  simp only [hostOps0]
  read_results
  rfl

/-- Where the degree is positive. -/
theorem pos_at1 (c : Dev nD) : W1 m ρ c (Proc.devRef .tc main_v12) = Cert.ReferenceIdeal.ReadP.val_main_v12 (F := Ideal) (m ((c : Thread nD τ).loc main_arg5)) := by
  show StableHlo.after hostOps0 (W0 m ρ c) (Proc.devRef .tc main_v12) = _
  simp only [hostOps0]
  read_results
  rfl

/-- The inverse square root of the degree (of at least one). -/
theorem rsq_at1 (c : Dev nD) : W1 m ρ c (Proc.devRef .tc main_v15) = Cert.ReferenceIdeal.ReadP.val_main_v15 (F := Ideal) (m ((c : Thread nD τ).loc main_arg5)) := by
  show StableHlo.after hostOps0 (W0 m ρ c) (Proc.devRef .tc main_v15) = _
  simp only [hostOps0]
  read_results
  rfl

/-- The scalar zero chosen where the degree is not positive. -/
theorem zero_at1 (c : Dev nD) : W1 m ρ c (Proc.devRef .tc main_cst_3) = Cert.ReferenceIdeal.ReadP.val_main_cst_3 (F := Ideal) := by
  show StableHlo.after hostOps0 (W0 m ρ c) (Proc.devRef .tc main_cst_3) = _
  simp only [hostOps0]
  read_results
  rfl

/-- The inverse square root of the degree where it is positive, zero elsewhere. -/
theorem dis_at2 (c : Dev nD) : W2 m ρ c (Proc.devRef .tc main_v16) = Cert.ReferenceIdeal.ReadP.val_main_v16 (F := Ideal) (m ((c : Thread nD τ).loc main_arg5)) := by
  have h12 := pos_at1 m ρ c
  have h15 := rsq_at1 m ρ c
  have h0 := zero_at1 m ρ c
  show StableHlo.after hostOps0_1 (W1 m ρ c) (Proc.devRef .tc main_v16) = _
  generalize W1 m ρ c = U at h12 h15 h0 ⊢
  simp only [hostOps0_1]
  read_results
  rw [h12, h15, h0]
  rfl

/-- The source nodes are not written by the second stretch. -/
theorem src_at2 (c : Dev nD) : W2 m ρ c (Proc.devRef .tc main_v3) = Cert.ReferenceIdeal.ReadP.val_main_v3 (F := Ideal) (m ((c : Thread nD τ).loc main_arg5)) := by
  have h := src_at1 m ρ c
  show StableHlo.after hostOps0_1 (W1 m ρ c) (Proc.devRef .tc main_v3) = _
  generalize W1 m ρ c = U at h ⊢
  simp only [hostOps0_1]
  after_results_simp
  exact h

/-- The destination nodes are not written by the second stretch. -/
theorem dst_at2 (c : Dev nD) : W2 m ρ c (Proc.devRef .tc main_v6) = Cert.ReferenceIdeal.ReadP.val_main_v6 (F := Ideal) (m ((c : Thread nD τ).loc main_arg5)) := by
  have h := dst_at1 m ρ c
  show StableHlo.after hostOps0_1 (W1 m ρ c) (Proc.devRef .tc main_v6) = _
  generalize W1 m ρ c = U at h ⊢
  simp only [hostOps0_1]
  after_results_simp
  exact h

/-- The per-edge normalisation, as a column. -/
theorem nrm_at3 (c : Dev nD) : W3 m ρ c (Proc.devRef .tc main_v32) = Cert.ReferenceIdeal.ReadP.val_main_v33 (F := Ideal) (m ((c : Thread nD τ).loc main_arg5)) := by
  have h16 := dis_at2 m ρ c
  have h3 := src_at2 m ρ c
  have h6 := dst_at2 m ρ c
  show StableHlo.after hostOps0_2 (W2 m ρ c) (Proc.devRef .tc main_v32) = _
  generalize W2 m ρ c = U at h16 h3 h6 ⊢
  simp only [hostOps0_2]
  read_results
  rw [h16, h3, h6]
  rfl

/-- The reference computes the normalisation a second time for its second layer: the same operations of the same edge
    list. -/
theorem nrm_twice (e : (⟨Cert.ReferenceIdeal.S2x3200000, .i32⟩ : BufTy).Contents (Elt Ideal)) :
    Cert.ReferenceIdeal.ReadP.val_main_v66 (F := Ideal) e = Cert.ReferenceIdeal.ReadP.val_main_v33 (F := Ideal) e := rfl

/-- Argument 0 is as launched when the first region is entered. -/
theorem arg0_at3 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0, hostOps0_1, hostOps0_2]
  after_results_simp

/-- Argument 1 is as launched when the first region is entered. -/
theorem arg1_at3 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  simp only [hostOps0, hostOps0_1, hostOps0_2]
  after_results_simp

/-- Argument 2 is as launched when the first region is entered. -/
theorem arg2_at3 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0, hostOps0_1, hostOps0_2]
  after_results_simp

/-- Argument 3 is as launched when the first region is entered. -/
theorem arg3_at3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0, hostOps0_1, hostOps0_2]
  after_results_simp

/-- Argument 4 is as launched when the first region is entered. -/
theorem arg4_at3 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0, hostOps0_1, hostOps0_2]
  after_results_simp

/-! ## The linear stage's region -/

/-- The linear stage's result array holds the reference's first matrix product. -/
theorem lin_at4 (c : Dev nD) :
    W4 m ρ c (Proc.devRef .tc main_v33) = Cert.ReferenceIdeal.ReadP.val_main_v17 (F := Ideal) (m ((c : Thread nD τ).loc main_arg0)) (m ((c : Thread nD τ).loc main_arg1)) := by
  show W4 m ρ c (Proc.devRef .tc (Pipeline.arrRef spec0 2)) = _
  refine (W4_arr m ρ c 2).trans ?_
  rw [Linear.final (V3 m ρ) c]
  show ofRows (lin (W3 m ρ c (Proc.devRef .tc main_arg0)) (W3 m ρ c (Proc.devRef .tc main_arg1))) = _
  rw [arg0_at3 m ρ c, arg1_at3 m ρ c]
  exact (Ref.lin_stage _ _).symm

/-! ## The first aggregation -/

/-- The first layer's aggregated array. -/
theorem agg1_at5 (c : Dev nD) :
    W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg5)) := by
  show StableHlo.after hostOps1 (W4 m ρ c) (Proc.devRef .tc main_v45) = _
  simp only [hostOps1]
  read_results
  rw [lin_at4 m ρ c, W4_of_ne m ρ c main_v6 (by decide), W4_of_ne m ρ c main_v32 (by decide), W4_of_ne m ρ c main_v3 (by decide),
    dst_at3 m ρ c, nrm_at3 m ρ c, src_at3 m ρ c]
  rfl

/-- The first bias as a one-row array: its entry (0, k) is the k-th bias entry. -/
theorem bias1_at5 (c : Dev nD) (k : Fin 16) :
    (W5 m ρ c (Proc.devRef .tc main_v46) : S1x16.Idx → EReal) (ix2 (0 : Fin 1) k) = ((m ((c : Thread nD τ).loc main_arg2)) : S16.Idx → EReal) (ix1 k) := by
  show StableHlo.after hostOps1 (W4 m ρ c) (Proc.devRef .tc main_v46) (ix2 (0 : Fin 1) k) = _
  simp only [hostOps1]
  read_results
  show shapeCast S1x16 (W4 m ρ c (Proc.devRef .tc main_arg2) : S16.Idx → EReal) _ (ix2 (0 : Fin 1) k) = _
  rw [shapeCast_a_1a_apply, W4_of_ne m ρ c main_arg2 (by decide), arg2_at3 m ρ c]

/-- The second weight matrix is not written by the first aggregation. -/
theorem arg3_at5 (c : Dev nD) : W5 m ρ c (Proc.devRef .tc main_arg3) = W4 m ρ c (Proc.devRef .tc main_arg3) := by
  show StableHlo.after hostOps1 (W4 m ρ c) (Proc.devRef .tc main_arg3) = _
  simp only [hostOps1]
  after_results_simp

/-- The second bias is not written by the first aggregation. -/
theorem arg4_at5 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results_simp

/-- The source nodes are not written by the first aggregation. -/
theorem src_at5 (c : Dev nD) : W5 m ρ c (Proc.devRef .tc main_v3) = W4 m ρ c (Proc.devRef .tc main_v3) := by
  show StableHlo.after hostOps1 (W4 m ρ c) (Proc.devRef .tc main_v3) = _
  simp only [hostOps1]
  after_results_simp

/-- The destination nodes are not written by the first aggregation. -/
theorem dst_at5 (c : Dev nD) : W5 m ρ c (Proc.devRef .tc main_v6) = W4 m ρ c (Proc.devRef .tc main_v6) := by
  show StableHlo.after hostOps1 (W4 m ρ c) (Proc.devRef .tc main_v6) = _
  simp only [hostOps1]
  after_results_simp

/-- The normalisation is not written by the first aggregation. -/
theorem nrm_at5 (c : Dev nD) : W5 m ρ c (Proc.devRef .tc main_v32) = W4 m ρ c (Proc.devRef .tc main_v32) := by
  show StableHlo.after hostOps1 (W4 m ρ c) (Proc.devRef .tc main_v32) = _
  simp only [hostOps1]
  after_results_simp

/-! ## The hidden stage's region -/

/-- The hidden stage's result array holds the reference's second matrix product. -/
theorem hid_at6 (c : Dev nD) :
    W6 m ρ c (Proc.devRef .tc main_v47)
      = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show W6 m ρ c (Proc.devRef .tc (Pipeline.arrRef spec1 3)) = _
  refine (W6_arr m ρ c 3).trans ?_
  rw [Hidden.final (V5 m ρ) c]
  show ofRows (hid (W5 m ρ c (Proc.devRef .tc main_v45)) (W5 m ρ c (Proc.devRef .tc main_v46)) (W5 m ρ c (Proc.devRef .tc main_arg3))) = _
  rw [agg1_at5 m ρ c, arg3_at5 m ρ c, W4_of_ne m ρ c main_arg3 (by decide), arg3_at3 m ρ c]
  exact (Ref.hid_stage _ _ _ _ _ (W5 m ρ c (Proc.devRef .tc main_v46)) (bias1_at5 m ρ c)).symm

/-! ## The second aggregation -/

/-- The second layer's aggregated array. -/
theorem agg2_at7 (c : Dev nD) :
    W7 m ρ c (Proc.devRef .tc main_v59)
      = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after hostOps2 (W6 m ρ c) (Proc.devRef .tc main_v59) = _
  simp only [hostOps2]
  read_results
  rw [hid_at6 m ρ c, W6_of_ne m ρ c main_v6 (by decide), W6_of_ne m ρ c main_v32 (by decide), W6_of_ne m ρ c main_v3 (by decide),
    dst_at5 m ρ c, nrm_at5 m ρ c, src_at5 m ρ c,
    W4_of_ne m ρ c main_v6 (by decide), W4_of_ne m ρ c main_v32 (by decide), W4_of_ne m ρ c main_v3 (by decide),
    dst_at3 m ρ c, nrm_at3 m ρ c, src_at3 m ρ c, ← nrm_twice]
  rfl

/-- The second bias as a one-row array: its entry (0, k) is the k-th bias entry. -/
theorem bias2_at7 (c : Dev nD) (k : Fin 2) :
    (W7 m ρ c (Proc.devRef .tc main_v60) : S1x2.Idx → EReal) (ix2 (0 : Fin 1) k) = ((m ((c : Thread nD τ).loc main_arg4)) : S2.Idx → EReal) (ix1 k) := by
  show StableHlo.after hostOps2 (W6 m ρ c) (Proc.devRef .tc main_v60) (ix2 (0 : Fin 1) k) = _
  simp only [hostOps2]
  read_results
  show shapeCast S1x2 (W6 m ρ c (Proc.devRef .tc main_arg4) : S2.Idx → EReal) _ (ix2 (0 : Fin 1) k) = _
  rw [shapeCast_a_1a_apply, W6_of_ne m ρ c main_arg4 (by decide), arg4_at5 m ρ c, W4_of_ne m ρ c main_arg4 (by decide), arg4_at3 m ρ c]

/-! ## The output stage's region: the result -/

/-- The program's result buffer ends holding the reference's result, as a function of the launch memory. -/
theorem result (c : Dev nD) :
    W8 m ρ c (Proc.devRef .tc main_v61)
      = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show W8 m ρ c (Proc.devRef .tc (Pipeline.arrRef spec2 2)) = _
  refine (W8_arr m ρ c 2).trans ?_
  rw [Output.final (V7 m ρ) c]
  show ofRows (lsm (W7 m ρ c (Proc.devRef .tc main_v59)) (W7 m ρ c (Proc.devRef .tc main_v60))) = _
  rw [agg2_at7 m ρ c]
  exact (Ref.lsm_stage _ _ _ _ _ _ (W7 m ρ c (Proc.devRef .tc main_v60)) (bias2_at7 m ρ c)).symm

end Cert.Gcn.Chain

end
-- ==== Proof.lean ====
/-
  A two-layer graph convolution network with a log-softmax output: the kernel program against its plain reference,
  equal as extended reals.

  Both programs build, by the same host operations, the edge lists with a self-loop at every node, each node's degree,
  its inverse square root, and the per-edge normalisation; both aggregate a layer by gathering the transformed rows
  at the edges' sources, scaling them and scatter-adding them at the destinations. They differ in who computes the
  three dense stages between the aggregations. The kernel program runs each as a 50-point grid over blocks of 4000
  rows: x · W1; max(a + b1, 0) · W2; and the log-softmax of the rows of a + b2, written (z − m) − log Σ exp(z − m) with
  m the row's maximum. The reference applies the host's matrix product, rectifier and log-softmax to whole arrays. On
  the extended reals a change of float format is the identity, both matrix products are the plain sum over the
  contracted axis, and a row's maximum and sum do not depend on the order of the entries; each stage reads one row at a
  time, so the blocks of a stage are the blocks of the whole-array stage. No law beyond these is needed, and none that
  asks the inputs to be finite: the precondition is not opened.

  The frames of the two kernel programs are the generated ones; the reference's is its run (read stretch by stretch
  against its stage values) with the result dropped;
  the idealization rewrote nothing, so there is nothing to preserve.
-/
import proofs.«163840_j22789096472662_2_alg».proof.Defs
import proofs.«163840_j22789096472662_2_alg».proof.Proof.Gen.Kernel
import proofs.«163840_j22789096472662_2_alg».proof.Proof.Gen.Kernel.Skeleton
import proofs.«163840_j22789096472662_2_alg».proof.Proof.Gen.Kernel.Launch
import proofs.«163840_j22789096472662_2_alg».proof.Proof.Gen.Kernel.Points
import proofs.«163840_j22789096472662_2_alg».proof.Proof.Gen.Kernel.Frame
import proofs.«163840_j22789096472662_2_alg».proof.Proof.Gen.KernelIdeal
import proofs.«163840_j22789096472662_2_alg».proof.Proof.Gen.KernelIdeal.Skeleton
import proofs.«163840_j22789096472662_2_alg».proof.Proof.Gen.KernelIdeal.Launch
import proofs.«163840_j22789096472662_2_alg».proof.Proof.Gen.KernelIdeal.Points
import proofs.«163840_j22789096472662_2_alg».proof.Proof.Gen.KernelIdeal.Frame
import proofs.«163840_j22789096472662_2_alg».proof.Proof.Gen.ReferenceIdeal
import proofs.«163840_j22789096472662_2_alg».proof.Proof.Gen.Pre_finite_inputs
import proofs.«163840_j22789096472662_2_alg».proof.Proof.RefRun
import proofs.«163840_j22789096472662_2_alg».proof.Proof.KernelRun
import proofs.«163840_j22789096472662_2_alg».proof.Proof.KernelChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Gcn.RefRun.run m ρ)

theorem preserves : Cert.preserves_Kernel_KernelIdeal := trivial

/-- Both programs end with the reference's result term of the kernel program's launch memory: the kernel program
    because each of its buffers holds the reference's value of the same stage, the reference because its arguments
    agree with the kernel program's. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Chain.result m ρ c), (h c).2⟩) (Cert.Gcn.KernelRun.run (F := Ideal) m ρ)
  · refine (θ_run Cert.ReferenceIdeal.defs _ _).mono (fun _ h c => ⟨(h c).1.trans ?_, (h c).2⟩)
      (Cert.Gcn.RefRun.run m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
